-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4096x128 .f32 .bf16
  ∧ IdealRules.truncf_extf.Statement Cert.KernelIdeal.S128x128 .f32 .bf16
  ∧ IdealRules.truncf_extf.Statement Cert.KernelIdeal.S4096x128 .f32 .bf16
  ∧ IdealRules.truncf_extf.Statement Cert.KernelIdeal.S4096x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x128 : Shape := ⟨3, ![8, 16384, 128]⟩
abbrev S128x128 : Shape := ⟨2, ![128, 128]⟩
abbrev S128 : Shape := ⟨1, ![128]⟩
abbrev S_ : Shape := ⟨0, ![]⟩

class Facts : Prop where
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x16384x128 .f32) (main_arg1 : FVec F S128x128 .f32) (main_arg2 : FVec F S128 .f32) : IVec S_ 1 :=
  let main_v0 : FVec F S8x16384x128 .f32 := Host.absf main_arg0
  let main_cst : FVec F S_ .f32 := constant S_ .f32 0x7F800000#32
  let main_v1 : FVec F S8x16384x128 .f32 := broadcastInDim S8x16384x128 ![] bcast_S_S8x16384x128 main_cst
  let main_v2 : IVec S8x16384x128 1 := cmpf .olt main_v0 main_v1
  let main_c : IVec S_ 1 := constantI S_ 1 1#1
  let main_v3 : IVec S_ 1 := (fun x v => Host.reduce IntOp.andi x v reducesTo_S8x16384x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x16384x128 : Shape := ⟨3, ![8, 16384, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S8x128x128 : Shape := ⟨3, ![8, 128, 128]⟩
abbrev S1x4096x128 : Shape := ⟨3, ![1, 4096, 128]⟩
abbrev S1x128x128 : Shape := ⟨3, ![1, 128, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 10
  | .vmem => 9
  | .smem => 0
  | _ => 0

abbrev bufTy : (tb : Table) → Fin (tcTables nBuf tb) → BufTy
  | .hbm, ⟨0, _⟩ => ⟨S8x16384x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S128x128, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S1x128, .f32⟩
  | .hbm, ⟨9, _⟩ => ⟨S8x128x128, .f32⟩
  | .local _ .vmem, ⟨0, _⟩ => ⟨S1x4096x128, .f32⟩
  | .local _ .vmem, ⟨1, _⟩ => ⟨S1x4096x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128x128, .f32⟩
  | .local _ .vmem, ⟨6, _⟩ => ⟨S1x128x128, .f32⟩
  | .local _ .vmem, ⟨7, _⟩ => ⟨S128x128, .f32⟩
  | .local _ .vmem, ⟨8, _⟩ => ⟨S1x128, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v70 : BitVec 1 := Scalar.cmpi .eq arg1 c3_i32
  let v71 : BitVec 32 := Scalar.extui v70
  let c0_i32_28 : BitVec 32 := 0#32
  let v72 : BitVec 1 := Scalar.cmpi .ne v71 c0_i32_28
  v72

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  reducesTo_S128x128_S128_d1 : S128x128.ReducesTo [1] S128
  h_S_ : 0 < S_.numel
  bcast_S128_S128x1_0 : S128.BroadcastsInDim S128x1 (![0] : Fin 1 → Fin S128x1.rank)
  shapeCasts_S128x1_S1x128 : S128x1.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  reduces_S4096x128_S4096 : S4096x128.Reduces [1] S4096
  shapeCasts_S4096_S4096x1 : S4096.ShapeCasts S4096x1
  broadcasts_S4096x1_S4096x128 : S4096x1.Broadcasts S4096x128
  broadcasts_S1x128_S4096x128 : S1x128.Broadcasts S4096x128
  reduces_S4096x128_S128 : S4096x128.Reduces [0] S128
  transposes_S1x128_p1_0_S128x1 : S1x128.Transposes [1, 0] S128x1
  broadcasts_S128x1_S128x128 : S128x1.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S4096x128_S128x128_S4096x128_1_1_0_0_n_n_wf : DotDims.WF S4096x128 S128x128 S4096x128 [1] [1] [0] [0] [] []
  dot_S4096x128_S4096x128_S128x128_0_0_1_1_n_n_wf : DotDims.WF S4096x128 S4096x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x16384x128.size a
  hwx0_0 : ∀ i : grid0.Coords, EltTy.bits .f32 = 32 ∨ (Rect.block (s := S8x16384x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S8x128x128.size a
  hwx0_4 : ∀ i : grid0.Coords, EltTy.bits .f32 = 32 ∨ (Rect.block (s := S8x128x128) S1x128x128.size (cc0_transform_4 i) (hinb0_4 i)).WholeWords (EltTy.packing .f32)

variable [Facts₀]

def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x16384x128 : Shape := ⟨3, ![8, 16384, 128]⟩
abbrev S128x128 : Shape := ⟨2, ![128, 128]⟩
abbrev S128 : Shape := ⟨1, ![128]⟩
abbrev S_ : Shape := ⟨0, ![]⟩
abbrev S8x16384 : Shape := ⟨2, ![8, 16384]⟩
abbrev S8x16384x1 : Shape := ⟨3, ![8, 16384, 1]⟩
abbrev S1x1x128 : Shape := ⟨3, ![1, 1, 128]⟩
abbrev S8x128x128 : Shape := ⟨3, ![8, 128, 128]⟩
abbrev S8x128 : Shape := ⟨2, ![8, 128]⟩
abbrev S8x128x1 : Shape := ⟨3, ![8, 128, 1]⟩
abbrev S1x128x128 : Shape := ⟨3, ![1, 128, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S128x128, .f32⟩
  | .hbm, ⟨2, _⟩ => ⟨S128, .f32⟩
  | .hbm, ⟨3, _⟩ => ⟨S8x16384x128, .f32⟩
  | .hbm, ⟨4, _⟩ => ⟨S_, .f32⟩
  | .hbm, ⟨5, _⟩ => ⟨S8x16384, .f32⟩
  | .hbm, ⟨6, _⟩ => ⟨S8x16384x1, .f32⟩
  | .hbm, ⟨7, _⟩ => ⟨S128x128, .f32⟩
  | .hbm, ⟨8, _⟩ => ⟨S_, .f32⟩
  | .hbm, ⟨9, _⟩ => ⟨S128, .f32⟩
  | .hbm, ⟨10, _⟩ => ⟨S8x16384x128, .f32⟩
  | .hbm, ⟨11, _⟩ => ⟨S1x1x128, .f32⟩
  | .hbm, ⟨12, _⟩ => ⟨S8x16384x128, .f32⟩
  | .hbm, ⟨13, _⟩ => ⟨S8x16384x128, .f32⟩
  | .hbm, ⟨14, _⟩ => ⟨S8x16384x128, .f32⟩
  | .hbm, ⟨15, _⟩ => ⟨S_, .f32⟩
  | .hbm, ⟨16, _⟩ => ⟨S8x16384x128, .f32⟩
  | .hbm, ⟨17, _⟩ => ⟨S8x16384x128, .f32⟩
  | .hbm, ⟨18, _⟩ => ⟨S8x16384x128, .f32⟩
  | .hbm, ⟨19, _⟩ => ⟨S1x1x128, .f32⟩
  | .hbm, ⟨20, _⟩ => ⟨S8x16384x128, .f32⟩
  | .hbm, ⟨21, _⟩ => ⟨S8x16384x128, .f32⟩
  | .hbm, ⟨22, _⟩ => ⟨S_, .f32⟩
  | .hbm, ⟨23, _⟩ => ⟨S8x16384, .f32⟩
  | .hbm, ⟨24, _⟩ => ⟨S_, .f32⟩
  | .hbm, ⟨25, _⟩ => ⟨S8x16384, .f32⟩
  | .hbm, ⟨26, _⟩ => ⟨S8x16384, .f32⟩
  | .hbm, ⟨27, _⟩ => ⟨S8x16384x1, .f32⟩
  | .hbm, ⟨28, _⟩ => ⟨S8x16384x128, .f32⟩
  | .hbm, ⟨29, _⟩ => ⟨S8x16384x128, .f32⟩
  | .hbm, ⟨30, _⟩ => ⟨S8x16384x128, .f32⟩
  | .hbm, ⟨31, _⟩ => ⟨S_, .f32⟩
  | .hbm, ⟨32, _⟩ => ⟨S8x16384, .f32⟩
  | .hbm, ⟨33, _⟩ => ⟨S8x16384x1, .f32⟩
  | .hbm, ⟨34, _⟩ => ⟨S8x16384x128, .f32⟩
  | .hbm, ⟨35, _⟩ => ⟨S8x16384x128, .f32⟩
  | .hbm, ⟨36, _⟩ => ⟨S8x128x128, .f32⟩
  | .hbm, ⟨37, _⟩ => ⟨S_, .f32⟩
  | .hbm, ⟨38, _⟩ => ⟨S8x128, .f32⟩
  | .hbm, ⟨39, _⟩ => ⟨S8x128x1, .f32⟩
  | .hbm, ⟨40, _⟩ => ⟨S1x128x128, .f32⟩
  | .hbm, ⟨41, _⟩ => ⟨S8x128x128, .f32⟩
  | .hbm, ⟨42, _⟩ => ⟨S8x128x128, .f32⟩
  | .hbm, ⟨43, _⟩ => ⟨S8x128x128, .f32⟩
  | .hbm, ⟨44, _⟩ => ⟨S8x128x128, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S8x16384x128_S8x16384_d2 : S8x16384x128.ReducesTo [2] S8x16384
  h_S_ : 0 < S_.numel
  bcast_S8x16384_S8x16384x1_0_1 : S8x16384.BroadcastsInDim S8x16384x1 (![0, 1] : Fin 2 → Fin S8x16384x1.rank)
  reducesTo_S128x128_S128_d1 : S128x128.ReducesTo [1] S128
  bcast_S128_S1x1x128_2 : S128.BroadcastsInDim S1x1x128 (![2] : Fin 1 → Fin S1x1x128.rank)
  bcast_S8x16384x1_S8x16384x128_0_1_2 : S8x16384x1.BroadcastsInDim S8x16384x128 (![0, 1, 2] : Fin 3 → Fin S8x16384x128.rank)
  bcast_S1x1x128_S8x16384x128_0_1_2 : S1x1x128.BroadcastsInDim S8x16384x128 (![0, 1, 2] : Fin 3 → Fin S8x16384x128.rank)
  bcast_S_S8x16384x128 : S_.BroadcastsInDim S8x16384x128 (![] : Fin 0 → Fin S8x16384x128.rank)
  bcast_S_S8x16384 : S_.BroadcastsInDim S8x16384 (![] : Fin 0 → Fin S8x16384.rank)
  reducesTo_S8x16384x128_S8x128_d1 : S8x16384x128.ReducesTo [1] S8x128
  bcast_S8x128_S8x128x1_0_1 : S8x128.BroadcastsInDim S8x128x1 (![0, 1] : Fin 2 → Fin S8x128x1.rank)
  bcast_S128x128_S1x128x128_1_2 : S128x128.BroadcastsInDim S1x128x128 (![1, 2] : Fin 2 → Fin S1x128x128.rank)
  bcast_S8x128x1_S8x128x128_0_1_2 : S8x128x1.BroadcastsInDim S8x128x128 (![0, 1, 2] : Fin 3 → Fin S8x128x128.rank)
  bcast_S1x128x128_S8x128x128_0_1_2 : S1x128x128.BroadcastsInDim S8x128x128 (![0, 1, 2] : Fin 3 → Fin S8x128x128.rank)
  dot_S8x16384x128_S128x128_S8x16384x128_2_1_01_0_n_n_wf : DotDims.WF S8x16384x128 S128x128 S8x16384x128 [2] [1] [0, 1] [0] [] []
  dot_S8x16384x128_S8x16384x128_S8x128x128_1_1_2_2_0_0_wf : DotDims.WF S8x16384x128 S8x16384x128 S8x128x128 [1] [1] [2] [2] [0] [0]

variable [Facts₀]

def dot_S8x16384x128_S128x128_S8x16384x128_2_1_01_0_n_n : DotDims S8x16384x128 S128x128 S8x16384x128 where
  lhsContracting := [2]
  rhsContracting := [1]
  lhsNonContracting := [0, 1]
  rhsNonContracting := [0]
  lhsBatch := []
  rhsBatch := []
  wf := dot_S8x16384x128_S128x128_S8x16384x128_2_1_01_0_n_n_wf
def dot_S8x16384x128_S8x16384x128_S8x128x128_1_1_2_2_0_0 : DotDims S8x16384x128 S8x16384x128 S8x128x128 where
  lhsContracting := [1]
  rhsContracting := [1]
  lhsNonContracting := [2]
  rhsNonContracting := [2]
  lhsBatch := [0]
  rhsBatch := [0]
  wf := dot_S8x16384x128_S8x16384x128_S8x128x128_1_1_2_2_0_0_wf

class Facts : Prop extends Facts₀ where

variable [Facts]
-- ==== Proof.FiniteEntries.lean ====
/-
  Every float input finite: each entry of the three inputs is a real number.
  The precondition computes, per input, "all |x| < +inf" as a conjunction over every entry, and
  conjoins the three results. Read at the extended reals, |x| = max x (-x) and the word 0x7F800000
  is the top element, so the bit at an entry says max x (-x) < top, which rules out both infinities.
-/
import proofs.«105869_j67671504716293_2_alg».proof.Pre_finite_inputs
import proofs.«105869_j67671504716293_2_alg».proof.Proof.Gen.Pre_finite_inputs
import Idealize.ShloMosaic.PureOps.Ideal
import Idealize.ShloMosaic.Lib.ReduceAll
import Idealize.ShloMosaic.Lib.ValueIdx

noncomputable section

namespace VqEncode

open Idealize.ShloMosaic

/-- The word with all-ones exponent and zero fraction denotes the top element. -/
theorem inf_word : Ideal.ofBits .f32 0x7F800000#32 = (⊤ : EReal) := by
  simp [Ideal.ofBits, Ideal.ieee]

/-- A one-bit word made from a Boolean is 1 exactly when the Boolean is true. -/
theorem ofBool_one {b : Bool} : BitVec.ofBool b = 1#1 ↔ b = true := by cases b <;> decide

/-- An extended real whose absolute value max a (-a) compares below the +inf word is a real number. -/
theorem real_of_abs_lt_inf (a : Ideal .f32)
    (h : FloatOps.cmpf (F := Ideal) .olt (FloatOps.hostAbsf a) (FloatOps.ofBits .f32 0x7F800000#32) = 1#1) :
    ∃ r : ℝ, a = (r : EReal) := by
  change BitVec.ofBool (decide (max a (-a) < Ideal.ofBits .f32 0x7F800000#32)) = 1#1 at h
  rw [inf_word, ofBool_one, decide_eq_true_eq] at h
  induction a using EReal.rec with
  | bot => simp at h
  | top => simp at h
  | coe r => exact ⟨r, rfl⟩

/-- The rank-0 shape has one index. -/
instance : Subsingleton Cert.Pre_finite_inputs.S_.Idx := ⟨fun a b => funext fun d => d.elim0⟩

/-- The precondition holding, every entry of each of the three inputs is a real number. -/
theorem real_of_finite [Cert.Pre_finite_inputs.Facts]
    (x0 : FVec Ideal Cert.Pre_finite_inputs.S8x16384x128 .f32) (x1 : FVec Ideal Cert.Pre_finite_inputs.S128x128 .f32)
    (x2 : FVec Ideal Cert.Pre_finite_inputs.S128 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, e2⟩ := IntOp.andi_eq_one.1 h0
  obtain ⟨e0, e1⟩ := IntOp.andi_eq_one.1 h01
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i)⟩

end VqEncode

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibBitFolds.lean ====
/-
  Single bits, their conjunctions and disjunctions over a finite family, and their readings as numbers.

  Two bits are equal when each is 1 exactly when the other is; a fold by AND from 1 over a finite family of bits is 1
  exactly when every member is, a fold by OR from 0 exactly when some member is; the maximum over a finite family of
  "1.0 where the bit is set, else 0.0", started from the -inf word and compared with 0.0 (how a row-wise "any" of a
  mask is computed with float lanes), is 1 exactly when some bit of the family is set; and a bit read as a number is
  the same whether it is read unsigned as it stands or widened to 32 bits and read signed.  All over the extended
  reals of the ideal instance; nothing here mentions a program.
-/
import Idealize.ShloMosaic.PureOps.Ideal.Laws
import Idealize.ShloMosaic.PureOps.Reduce
import Idealize.ShloMosaic.Lib.ValueIdx
import Idealize.ShloMosaic.Lib.Affine
import Idealize.ShloMosaic.Lib.IdealHost

noncomputable section

namespace Cert.BitFolds

open Idealize.ShloMosaic Idealize.ShloMosaic.ValueIdx

/-- Two bits are equal when each is 1 exactly when the other is. -/
theorem bit_ext {a b : BitVec 1} (h : a = 1#1 ↔ b = 1#1) : a = b := by
  rcases BitVec.eq_zero_or_eq_one a with ha | ha <;> rcases BitVec.eq_zero_or_eq_one b with hb | hb <;> subst ha <;> subst hb
  · rfl
  · exact absurd (h.mpr rfl) (by decide)
  · exact absurd (h.mp rfl) (by decide)
  · rfl

/-- A truth value as a bit is 1 exactly when it is true. -/
theorem ofBool_eq_one {b : Bool} : BitVec.ofBool b = 1#1 ↔ b = true := by cases b <;> decide

/-- A bit read as a number: 0 or 1. -/
def bitR (b : BitVec 1) : EReal := ((b.toNat : ℝ) : EReal)

/-- Widening a bit to 32 bits and reading the word signed gives the same number. -/
theorem toInt_setWidth_bit (b : BitVec 1) : ((((b.setWidth 32).toInt : ℤ) : ℝ) : EReal) = bitR b := by
  rcases BitVec.eq_zero_or_eq_one b with h | h <;> subst h <;> simp [bitR]

theorem bitR_zero : bitR 0#1 = 0 := by simp [bitR]
theorem bitR_one : bitR 1#1 = 1 := by simp [bitR]

/-- A conjunction over a finite family of bits is 1 exactly when every member is. -/
theorem fold_andi_eq_one {ι : Type} [DecidableEq ι] (f : ι → BitVec 1) (s : Finset ι) :
    s.fold IntOp.andi 1#1 f = 1#1 ↔ ∀ k ∈ s, f k = 1#1 := by
  induction s using Finset.induction_on with
  | empty => simp
  | insert a s ha ih =>
    rw [Finset.fold_insert ha, IntOp.andi_eq_one, ih]
    constructor
    · rintro ⟨h1, h2⟩ k hk
      rcases Finset.mem_insert.mp hk with rfl | hk
      · exact h1
      · exact h2 k hk
    · intro h
      exact ⟨h a (Finset.mem_insert_self a s), fun k hk => h k (Finset.mem_insert_of_mem hk)⟩

/-- A disjunction over a finite family of bits is 1 exactly when some member is. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- The -inf word is the bottom of the extended reals. -/
theorem ofBits_neg_inf_f32 : Ideal.ofBits .f32 0xFF800000#32 = ⊥ := by simp [Ideal.ofBits, Ideal.ieee]

/-- The row maximum, over a finite family, of "1.0 where the bit is set, else 0.0", started from -inf, is above 0.0
    exactly when some bit of the family is set — the float spelling of a disjunction. -/
theorem max_select_pos {ι : Type} (f : ι → BitVec 1) (s : Finset ι) :
    Ideal.cmp .ogt (s.fold max (Ideal.ofBits .f32 0xFF800000#32)
        (fun k => Scalar.select (f k) (Ideal.ofBits .f32 0x3F800000#32) (Ideal.ofBits .f32 0x00000000#32)))
      (Ideal.ofBits .f32 0x00000000#32) = 1#1 ↔ ∃ k ∈ s, f k = 1#1 := by
  rw [ofBits_neg_inf_f32, Ideal.ofBits_zero_f32, Ideal.ofBits_one_f32]
  unfold Ideal.cmp
  simp only [ofBool_eq_one, decide_eq_true_eq]
  rw [Finset.lt_fold_max]
  constructor
  · rintro (h | ⟨k, hk, h⟩)
    · exact absurd h (by simp)
    · refine ⟨k, hk, ?_⟩
      rcases BitVec.eq_zero_or_eq_one (f k) with h0 | h1
      · rw [h0, select_zero] at h; exact absurd h (lt_irrefl _)
      · exact h1
  · rintro ⟨k, hk, h⟩
    refine Or.inr ⟨k, hk, ?_⟩
    rw [h, select_one]
    exact zero_lt_one

end Cert.BitFolds

end
-- ==== Proof.LibSoftmaxRows.lean ====
/-
  Softmax over the rows of a score block, read at an index, on the extended reals.

  For a block of scores s of shape [a, b]:
  * the row maximum — a max-reduction over the columns from the -inf word, kept as a column [a, 1] and broadcast back to
    [a, b] — read at (q, k) is the largest score of row q, folded from the bottom element (`rowTop`);
  * the row sum — an add-reduction from the zero word, kept and broadcast the same way — read at (q, k) is Σ_k' s[q, k'];
  * so exp(s − rowmax) / rowsum(exp(s − rowmax)) at (q, k) is the softmax weight of column k among row q's scores
    (`rowWeight`): the form jnp's `p = exp(s - max); p / sum(p)` takes in a kernel body.
  Beside them, the one law of the extended reals such kernels need when a constant scale is moved across an inner
  product: a nonnegative finite factor distributes over any finite sum, whatever the summands.
-/
import proofs.«105869_j67671504716293_2_alg».proof.Proof.LibRowSum
import proofs.«105869_j67671504716293_2_alg».proof.Proof.LibKeepdimsLayout
import proofs.«105869_j67671504716293_2_alg».proof.Proof.LibBitFolds
import Idealize.ShloMosaic.PureOps.Ideal.Laws
import Idealize.ShloMosaic.Lib.ValueIdx
import Idealize.ShloMosaic.Lib.Pipeline.Value
import Mathlib.Data.EReal.Operations
import Mathlib.Data.Finset.Fold

noncomputable section

open scoped BigOperators

namespace Cert.SoftmaxLib

open Idealize.ShloMosaic Idealize.ShloMosaic.ValueIdx

/-- The largest of finitely many extended reals, from the bottom element. -/
def rowTop {n : ℕ} (s : Fin n → EReal) : EReal := (Finset.univ : Finset (Fin n)).fold max (⊥ : EReal) s

/-- The softmax weight of entry k among s: exp(s_k − top) / Σ_k' exp(s_k' − top). -/
def rowWeight {n : ℕ} (s : Fin n → EReal) (k : Fin n) : EReal :=
  Ideal.div (Ideal.exp (s k - rowTop s)) (∑ k' : Fin n, Ideal.exp (s k' - rowTop s))

/-- A nonnegative finite factor distributes over a finite sum of extended reals; no summand need be finite. -/
theorem sum_mul_const {c : EReal} (h0 : 0 ≤ c) (htop : c ≠ ⊤) {n : ℕ} (t : Fin n → EReal) :
    ∑ e : Fin n, t e * c = (∑ e : Fin n, t e) * c := by
  classical
  refine Finset.induction_on (Finset.univ : Finset (Fin n)) ?_ ?_
  · simp
  · intro a s ha ih
    rw [Finset.sum_insert ha, Finset.sum_insert ha, ih, EReal.right_distrib_of_nonneg_of_ne_top h0 htop]

/-- Scaling the left factors of an inner product by such a constant scales the inner product. -/
theorem scaled_inner {c : EReal} (h0 : 0 ≤ c) (htop : c ≠ ⊤) {n : ℕ} (x y : Fin n → EReal) :
    ∑ e : Fin n, (x e * c) * y e = (∑ e : Fin n, x e * y e) * c := by
  rw [← sum_mul_const h0 htop]
  refine Finset.sum_congr rfl fun e _ => ?_
  rw [mul_assoc, mul_comm c, ← mul_assoc]

variable {a b : ℕ}

/-- The row maximum, kept as a column and broadcast over the row, read at (q, k). -/
theorem rowMax_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .maximumf [1] ⟨1, ![a]⟩ s 0xFF800000#32 h hφ hacc) hc) hb (ix2 q k)
      = rowTop (fun k' : Fin b => s (ix2 q k')) := by
  rw [Cert.LayoutKeepdims.broadcastTo_a1_ab_apply, Cert.LayoutKeepdims.shapeCast_a_a1_apply,
    Ideal.multiReduction_maximumf_single]
  unfold rowTop
  rw [Ideal.ofBits_def, Cert.BitFolds.ofBits_neg_inf_f32]
  refine congrArg (fun f => (Finset.univ : Finset (Fin b)).fold max (⊥ : EReal) f) ?_
  funext k'
  exact congrArg s (Idealize.ShloMosaic.RowSum.lift_row h q k')

/-- The row sum, kept as a column and broadcast over the row, read at (q, k). -/
theorem rowSum_at (s : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .add [1] ⟨1, ![a]⟩ s 0x00000000#32 h hφ hacc) hc) hb (ix2 q k)
      = ∑ k' : Fin b, s (ix2 q k') := by
  rw [Cert.LayoutKeepdims.broadcastTo_a1_ab_apply, Cert.LayoutKeepdims.shapeCast_a_a1_apply,
    Idealize.ShloMosaic.RowSum.rowSum_apply]

/-- Scores minus their row maximum, exponentiated, at (q, k). -/
theorem shifted_exp_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    exp (subf s (broadcastTo ⟨2, ![a, b]⟩ (shapeCast ⟨2, ![a, 1]⟩ (multiReduction .maximumf [1] ⟨1, ![a]⟩ s 0xFF800000#32 h hφ hacc) hc) hb)) (ix2 q k)
      = Ideal.exp (s (ix2 q k) - rowTop (fun k' : Fin b => s (ix2 q k'))) := by
  show Ideal.exp (s (ix2 q k) - _) = _
  rw [rowMax_at]

/-- THE WEIGHTS: exp(s − rowmax) / rowsum(exp(s − rowmax)) at (q, k) is the softmax weight of k in row q. -/
theorem weights_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    divf (exp (subf s (broadcastTo ⟨2, ![a, b]⟩ (shapeCast ⟨2, ![a, 1]⟩ (multiReduction .maximumf [1] ⟨1, ![a]⟩ s 0xFF800000#32 h hφ hacc) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc) hb) (ix2 q k)
      = rowWeight (fun k' : Fin b => s (ix2 q k')) k := by
  rw [divf_apply, rowSum_at, shifted_exp_at]
  unfold rowWeight
  refine congrArg (Ideal.div _) ?_
  exact Finset.sum_congr rfl fun k' _ => shifted_exp_at s h hφ hacc hc hb q k'

end Cert.SoftmaxLib

end
-- ==== Proof.LibRealWeights.lean ====
/-
  Real numbers inside the extended reals, softmax weights of real scores, and inner products taken in three passes.

  An extended real is called real when it is neither infinity. Sums, differences, products and finite sums of real
  numbers are real; a real number minus itself is zero; the largest of finitely many (at least one) real numbers is
  real; the exponential of a real number is a positive real; and a real number divided by a positive real is real.
  Together: the softmax weight exp(s_k - max s) / sum_k' exp(s_k' - max s) of a nonempty row of real scores is real
  (`isReal_rowWeight`, over the row-softmax definitions `rowTop` and `rowWeight`).
  A kernel that emulates a full-precision product by splitting each factor into a high part (the factor narrowed and widened
  again, which on the extended reals is the factor itself) and a low part (the factor minus its high part) and adding
  high*high + high*low + low*high computes, on real factors, the plain inner product: the low parts are zero (`dot3_eq`).
  Nothing here mentions a program; every statement is about extended reals and finite sums.
-/
import proofs.«105869_j67671504716293_2_alg».proof.Proof.LibSoftmaxRows
import Idealize.ShloMosaic.PureOps.Ideal
import Idealize.ShloMosaic.PureOps.Ideal.Laws
import Mathlib.Data.EReal.Operations
import Mathlib.Data.Finset.Fold

noncomputable section

open scoped BigOperators

namespace VqEncode

open Idealize.ShloMosaic

/-- An extended real that is a real number. -/
def IsReal (x : EReal) : Prop := ∃ r : ℝ, x = (r : EReal)

/-- An extended real that is a positive real number. -/
def IsPos (x : EReal) : Prop := ∃ r : ℝ, 0 < r ∧ x = (r : EReal)

theorem IsPos.isReal {x : EReal} (h : IsPos x) : IsReal x := by
  obtain ⟨r, _, rfl⟩ := h; exact ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A real number minus itself is zero (an infinity minus itself is not). -/
theorem IsReal.sub_self {x : EReal} (hx : IsReal x) : x - x = 0 := by
  obtain ⟨a, rfl⟩ := hx; rw [← EReal.coe_sub, _root_.sub_self, EReal.coe_zero]

theorem IsReal.ne_bot {x : EReal} (hx : IsReal x) : x ≠ ⊥ := by
  obtain ⟨a, rfl⟩ := hx; exact EReal.coe_ne_bot a

theorem IsReal.max {x y : EReal} (hx : IsReal x) (hy : IsReal y) : IsReal (max x y) := by
  rcases max_choice x y with h | h <;> rw [h] <;> assumption

/-- A finite sum of real numbers is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A sum of positive reals over a nonempty index set is a positive real. -/
theorem isPos_sum {n : ℕ} (f : Fin (n + 1) → EReal) (h : ∀ i, IsPos (f i)) : IsPos (∑ i, f i) := by
  choose g hg0 hg using h
  refine ⟨∑ i, g i, Finset.sum_pos (fun i _ => hg0 i) ⟨0, Finset.mem_univ _⟩, ?_⟩
  rw [← coe_sum]
  exact Finset.sum_congr rfl fun i _ => hg i

/-- The exponential of a real number is a positive real. -/
theorem IsReal.exp {x : EReal} (hx : IsReal x) : IsPos (Ideal.exp x) := by
  obtain ⟨a, rfl⟩ := hx; exact ⟨Real.exp a, Real.exp_pos a, rfl⟩

/-- A real number divided by a positive real is real. -/
theorem IsReal.div {x y : EReal} (hx : IsReal x) (hy : IsPos y) : IsReal (Ideal.div x y) := by
  obtain ⟨b, hb, rfl⟩ := hy
  rw [Ideal.div_coe (ne_of_gt hb)]
  exact hx.mul ⟨1 / b, rfl⟩

/-- The largest of finitely many extended reals, each real or the bottom, is real or the bottom. -/
theorem fold_max_bot_or_real {ι : Type} (t : Finset ι) (s : ι → EReal) (h : ∀ k, IsReal (s k)) :
    t.fold max (⊥ : EReal) s = ⊥ ∨ IsReal (t.fold max (⊥ : EReal) s) := by
  classical
  induction t using Finset.induction_on with
  | empty => exact Or.inl (Finset.fold_empty)
  | insert a t ha ih =>
    rw [Finset.fold_insert ha]
    rcases ih with h0 | h1
    · rw [h0, max_bot_right]; exact Or.inr (h a)
    · exact Or.inr ((h a).max h1)

/-- The largest entry of a nonempty row of real numbers is real. -/
theorem isReal_rowTop {n : ℕ} (s : Fin (n + 1) → EReal) (h : ∀ k, IsReal (s k)) : IsReal (Cert.SoftmaxLib.rowTop s) := by
  unfold Cert.SoftmaxLib.rowTop
  rcases fold_max_bot_or_real Finset.univ s h with h0 | h1
  · exfalso
    have hle : s 0 ≤ (Finset.univ : Finset (Fin (n + 1))).fold max (⊥ : EReal) s :=
      (Finset.le_fold_max (s := Finset.univ) (f := s) (b := (⊥ : EReal)) (c := s 0)).2 (Or.inr ⟨0, Finset.mem_univ _, le_refl _⟩)
    rw [h0] at hle
    exact (h 0).ne_bot (le_bot_iff.mp hle)
  · exact h1

/-- THE WEIGHTS ARE REAL: the softmax weight of an entry of a nonempty row of real scores is a real number. -/
theorem isReal_rowWeight {n : ℕ} (s : Fin (n + 1) → EReal) (h : ∀ k, IsReal (s k)) (k : Fin (n + 1)) :
    IsReal (Cert.SoftmaxLib.rowWeight s k) := by
  unfold Cert.SoftmaxLib.rowWeight
  have ht := isReal_rowTop s h
  exact ((h k).sub ht).exp.isReal.div (isPos_sum _ fun k' => ((h k').sub ht).exp)

/-- The inner product of two rows of any length. -/
def dot {n : ℕ} (v w : Fin n → EReal) : EReal := ∑ d, v d * w d

/-- The inner product in three passes: whole times whole, whole times low part, low part times whole, a low part being the
    number minus itself. -/
def dot3 {n : ℕ} (v w : Fin n → EReal) : EReal :=
  (dot v w + ∑ d, v d * (w d - w d)) + ∑ d, (v d - v d) * w d

/-- On rows of real numbers the low parts vanish and three passes are one. -/
theorem dot3_eq {n : ℕ} (v w : Fin n → EReal) (hv : ∀ d, IsReal (v d)) (hw : ∀ d, IsReal (w d)) : dot3 v w = dot v w := by
  unfold dot3
  have e1 : ∑ d, v d * (w d - w d) = 0 :=
    Finset.sum_eq_zero fun d _ => by rw [(hw d).sub_self, mul_zero]
  have e2 : ∑ d, (v d - v d) * w d = 0 :=
    Finset.sum_eq_zero fun d _ => by rw [(hv d).sub_self, zero_mul]
  rw [e1, e2, add_zero, add_zero]

theorem isReal_dot {n : ℕ} (v w : Fin n → EReal) (hv : ∀ d, IsReal (v d)) (hw : ∀ d, IsReal (w d)) : IsReal (dot v w) :=
  isReal_sum _ _ fun d _ => (hv d).mul (hw d)

/-- The f32 word of 2.0 denotes the real number 2. -/
theorem isReal_two : IsReal (Ideal.ofBits .f32 0x40000000#32) := ⟨2, by simp [Ideal.ofBits, Ideal.ieee, -EReal.coe_mul]; norm_num⟩

end VqEncode

end
-- ==== Proof.Spec.lean ====
/-
  The soft vector-quantization encoder as one function of its arguments, on the extended reals.

  For a feature row x (128 numbers), codewords C (128 rows of 128) and scales S (128 numbers):
    logit_k  = S_k * ((|x|^2 + |C_k|^2) - 2 * <x, C_k>)          the scaled squared distance to codeword k,
    weight_k = exp(logit_k - max logit) / sum_k' exp(logit_k' - max logit)   the soft assignment of x to codeword k,
  and for a batch b of 16384 rows X[b, n, :] the encoding is
    E[b, k, d] = sum_n weight_k(X[b,n]) * X[b,n,d]  -  (sum_n weight_k(X[b,n])) * C[k,d].
  With the cross term taken in three passes (the library's law: on real entries three passes are one) the distances are the
  same; and a sum over 16384 rows is the sum over 4 tiles of the sums over the 4096 rows of each tile.
-/
import proofs.«105869_j67671504716293_2_alg».proof.Proof.LibRealWeights
import Idealize.ShloMosaic.Lib.ValueIdx

noncomputable section

open scoped BigOperators

namespace VqEncode

open Idealize.ShloMosaic Cert.SoftmaxLib

/-- The f32 word of 2.0, kept as a word: both programs spell the same one. -/
abbrev two : EReal := Ideal.ofBits .f32 0x40000000#32

/-- The scaled squared distance of a feature row to codeword k, with the codeword's squared norm given. -/
def logitWith (C : Fin 128 → Fin 128 → EReal) (S c2 : Fin 128 → EReal) (xr : Fin 128 → EReal) (k : Fin 128) : EReal :=
  S k * ((dot xr xr + c2 k) - two * dot xr (C k))

/-- The scaled squared distance of a feature row to codeword k. -/
def logit (C : Fin 128 → Fin 128 → EReal) (S : Fin 128 → EReal) (xr : Fin 128 → EReal) (k : Fin 128) : EReal :=
  logitWith C S (fun k => dot (C k) (C k)) xr k

/-- The same with the cross term taken in three passes. -/
def logit3 (C : Fin 128 → Fin 128 → EReal) (S c2 : Fin 128 → EReal) (xr : Fin 128 → EReal) (k : Fin 128) : EReal :=
  S k * ((dot xr xr + c2 k) - two * dot3 xr (C k))

theorem logit3_eq (C : Fin 128 → Fin 128 → EReal) (S c2 : Fin 128 → EReal) (xr : Fin 128 → EReal)
    (hC : ∀ k d, IsReal (C k d)) (hx : ∀ d, IsReal (xr d)) (k : Fin 128) :
    logit3 C S c2 xr k = logitWith C S c2 xr k := by
  unfold logit3 logitWith
  rw [dot3_eq xr (C k) hx (hC k)]

/-- The distances of a real row to real codewords with real scales are real. -/
theorem isReal_logit (C : Fin 128 → Fin 128 → EReal) (S : Fin 128 → EReal) (xr : Fin 128 → EReal)
    (hC : ∀ k d, IsReal (C k d)) (hS : ∀ k, IsReal (S k)) (hx : ∀ d, IsReal (xr d)) (k : Fin 128) :
    IsReal (logit C S xr k) := by
  unfold logit logitWith
  exact (hS k).mul (((isReal_dot xr xr hx hx).add (isReal_dot _ _ (hC k) (hC k))).sub (isReal_two.mul (isReal_dot _ _ hx (hC k))))

/-- The soft assignment of a feature row to codeword k. -/
def weight (C : Fin 128 → Fin 128 → EReal) (S : Fin 128 → EReal) (xr : Fin 128 → EReal) (k : Fin 128) : EReal :=
  rowWeight (logit C S xr) k

/-- It is a real number when everything it is computed from is. -/
theorem isReal_weight (C : Fin 128 → Fin 128 → EReal) (S : Fin 128 → EReal) (xr : Fin 128 → EReal)
    (hC : ∀ k d, IsReal (C k d)) (hS : ∀ k, IsReal (S k)) (hx : ∀ d, IsReal (xr d)) (k : Fin 128) :
    IsReal (weight C S xr k) :=
  isReal_rowWeight (n := 127) (logit C S xr) (isReal_logit C S xr hC hS hx) k

/-- THE ENCODING: the aggregated residuals of batch b against codeword k, coordinate d. -/
def encode (X : Fin 8 → Fin 16384 → Fin 128 → EReal) (C : Fin 128 → Fin 128 → EReal) (S : Fin 128 → EReal)
    (b : Fin 8) (k d : Fin 128) : EReal :=
  (∑ n, weight C S (X b n) k * X b n d) - (∑ n, weight C S (X b n) k) * C k d

/-- The three argument arrays read by coordinates, and the encoding as an array of shape [8, 128, 128]. -/
def rowsOf (x0 : (⟨3, ![8, 16384, 128]⟩ : Shape).Idx → EReal) : Fin 8 → Fin 16384 → Fin 128 → EReal :=
  fun b n d => x0 (ValueIdx.ix3 b n d)
def matOf (x1 : (⟨2, ![128, 128]⟩ : Shape).Idx → EReal) : Fin 128 → Fin 128 → EReal := fun k d => x1 (ValueIdx.ix2 k d)
def vecOf (x2 : (⟨1, ![128]⟩ : Shape).Idx → EReal) : Fin 128 → EReal := fun k => x2 (ValueIdx.ix1 k)
def encodeArr (x0 : (⟨3, ![8, 16384, 128]⟩ : Shape).Idx → EReal) (x1 : (⟨2, ![128, 128]⟩ : Shape).Idx → EReal)
    (x2 : (⟨1, ![128]⟩ : Shape).Idx → EReal) : (⟨3, ![8, 128, 128]⟩ : Shape).Idx → EReal :=
  fun i => encode (rowsOf x0) (matOf x1) (vecOf x2) (i 0) (i 1) (i 2)

theorem encodeArr_apply (x0 : (⟨3, ![8, 16384, 128]⟩ : Shape).Idx → EReal) (x1 : (⟨2, ![128, 128]⟩ : Shape).Idx → EReal)
    (x2 : (⟨1, ![128]⟩ : Shape).Idx → EReal) (b : Fin 8) (k d : Fin 128) :
    encodeArr x0 x1 x2 (ValueIdx.ix3 b k d) = encode (rowsOf x0) (matOf x1) (vecOf x2) b k d := rfl

/-- Row r of tile t of the 16384 rows. -/
def tileRow (t : Fin 4) (r : Fin 4096) : Fin 16384 := ⟨4096 * t.val + r.val, by have := t.isLt; have := r.isLt; omega⟩

/-- A sum over the 16384 rows is the sum over the 4 tiles of the sums over each tile's 4096 rows. -/
theorem sum_tiles {M : Type} [AddCommMonoid M] (f : Fin 16384 → M) :
    ∑ n, f n = ∑ t : Fin 4, ∑ r : Fin 4096, f (tileRow t r) := by
  rw [← Fintype.sum_prod_type']
  refine (Fintype.sum_equiv (finProdFinEquiv (m := 4) (n := 4096)) _ _ fun p => ?_).symm
  obtain ⟨t, r⟩ := p
  refine congrArg f (Fin.ext ?_)
  show 4096 * t.val + r.val = r.val + 4096 * t.val
  omega

end VqEncode

end
-- ==== Proof.RefIsEncode.lean ====
/-
  The reference program's result, read index by index, is the encoding of its three arguments.

  The program computes, for every batch b, row n and codeword k, the scaled squared distance
    S_k * ((|x|^2 + |C_k|^2) - 2 * <x, C_k>)            with x = X[b, n, :],
  then along k the largest of these (a maximum taken from the bottom element, once more compared with it), the
  exponentials of the differences to it, their sum, and the quotients: the soft assignment of x to the codewords.
  Its result at (b, k, d) is the sum over n of weight * X[b, n, d] minus (the sum over n of the weights) * C[k, d].
  Each stage is read at explicit coordinates; the composed index maps of the layout operations are the coordinate
  indices themselves, and a sum's initial zero is dropped.
-/
import proofs.«105869_j67671504716293_2_alg».proof.Proof.Gen.ReferenceIdeal.Read
import proofs.«105869_j67671504716293_2_alg».proof.Proof.Spec
import Idealize.ShloMosaic.Lib.ValueIdx
import Idealize.ShloMosaic.PureOps.Ideal.Laws
import Idealize.ShloMosaic.PureOps.Reduce

noncomputable section

open scoped BigOperators

namespace VqEncode.Ref

open Cert.ReferenceIdeal Cert.ReferenceIdeal.Gen Cert.ReferenceIdeal.Read Idealize.ShloMosaic Idealize.ShloMosaic.ValueIdx
open Cert.SoftmaxLib

/-! ## The scaled squared distances -/

/-- The squared norm of row (b, n), broadcast along the codewords. -/
theorem rowNorm_at (x0 : (⟨S8x16384x128, .f32⟩ : BufTy).Contents (Elt Ideal)) (b : Fin 8) (n : Fin 16384) (k : Fin 128) :
    val_main_v7 (F := Ideal) x0 (ix3 b n k) = dot (rowsOf x0 b n) (rowsOf x0 b n) := by
  rw [val_main_v7_apply, val_main_v2_apply, val_main_v1_apply, val_main_cst_apply]
  simp only [val_main_v0_apply, Ideal.mulf_def, Ideal.ofBits_def, Ideal.ofBits_zero_f32, zero_add]
  unfold dot rowsOf
  refine Finset.sum_congr rfl fun d _ => ?_
  have e : idx_main_v1 (idx_main_v2 (idx_main_v7 (ix3 b n k))) d = ix3 b n d :=
    funext fun a => Fin.ext (by match a with | ⟨0, _⟩ => rfl | ⟨1, _⟩ => rfl | ⟨2, _⟩ => rfl)
  rw [e]

/-- The squared norm of codeword k, broadcast along the batches and rows. -/
theorem codeNorm_at (x1 : (⟨S128x128, .f32⟩ : BufTy).Contents (Elt Ideal)) (b : Fin 8) (n : Fin 16384) (k : Fin 128) :
    val_main_v8 (F := Ideal) x1 (ix3 b n k) = dot (matOf x1 k) (matOf x1 k) := by
  rw [val_main_v8_apply, val_main_v6_apply, val_main_v4_apply, val_main_cst_0_apply]
  simp only [val_main_v3_apply, Ideal.mulf_def, Ideal.ofBits_def, Ideal.ofBits_zero_f32, zero_add]
  unfold dot matOf
  refine Finset.sum_congr rfl fun d _ => ?_
  have e : idx_main_v4 (idx_main_v6 (idx_main_v8 (ix3 b n k))) d = ix2 k d :=
    funext fun a => Fin.ext (by match a with | ⟨0, _⟩ => rfl | ⟨1, _⟩ => rfl)
  rw [e]

/-- The inner product of row (b, n) with codeword k. -/
theorem cross_at (x0 : (⟨S8x16384x128, .f32⟩ : BufTy).Contents (Elt Ideal)) (x1 : (⟨S128x128, .f32⟩ : BufTy).Contents (Elt Ideal))
    (b : Fin 8) (n : Fin 16384) (k : Fin 128) :
    val_main_v5 (F := Ideal) x0 x1 (ix3 b n k) = dot (rowsOf x0 b n) (matOf x1 k) := by
  rw [val_main_v5_apply]
  unfold dot rowsOf matOf
  refine Finset.sum_congr rfl fun d _ => ?_
  have el : lidx_main_v5 (ix3 b n k) d = ix3 b n d :=
    funext fun a => Fin.ext (by match a with | ⟨0, _⟩ => rfl | ⟨1, _⟩ => rfl | ⟨2, _⟩ => rfl)
  have er : ridx_main_v5 (ix3 b n k) d = ix2 k d :=
    funext fun a => Fin.ext (by match a with | ⟨0, _⟩ => rfl | ⟨1, _⟩ => rfl)
  rw [el, er]

/-- The scale of codeword k, broadcast along the batches and rows. -/
theorem scale_at (x2 : (⟨S128, .f32⟩ : BufTy).Contents (Elt Ideal)) (b : Fin 8) (n : Fin 16384) (k : Fin 128) :
    val_main_v14 (F := Ideal) x2 (ix3 b n k) = vecOf x2 k := by
  rw [val_main_v14_apply, val_main_v13_apply]
  unfold vecOf
  have e : idx_main_v13 (idx_main_v14 (ix3 b n k)) = ix1 k :=
    funext fun a => Fin.ext (by match a with | ⟨0, _⟩ => rfl)
  rw [e]

/-- The scaled squared distance of row (b, n) to codeword k. -/
theorem logit_at (x0 : (⟨S8x16384x128, .f32⟩ : BufTy).Contents (Elt Ideal)) (x1 : (⟨S128x128, .f32⟩ : BufTy).Contents (Elt Ideal))
    (x2 : (⟨S128, .f32⟩ : BufTy).Contents (Elt Ideal)) (b : Fin 8) (n : Fin 16384) (k : Fin 128) :
    val_main_v15 (F := Ideal) x0 x1 x2 (ix3 b n k) = logit (matOf x1) (vecOf x2) (rowsOf x0 b n) k := by
  rw [val_main_v15_apply, val_main_v12_apply, val_main_v9_apply, val_main_v11_apply, val_main_v10_apply,
    val_main_cst_1_apply, scale_at, rowNorm_at, codeNorm_at, cross_at]
  rfl

/-! ## The row maximum -/

/-- The index over (b, n) with k put back on the reduced axis is (b, n, k). -/
theorem lift_row (h : S8x16384x128.Reduces [2] S8x16384) (b : Fin 8) (n : Fin 16384) (k : Fin (S8x16384x128.size 2)) :
    h.lift (ix2 b n) k = ix3 b n (⟨k.val, k.isLt⟩ : Fin 128) := by
  funext c; apply Fin.ext
  fin_cases c <;> rfl

/-- The largest of row (b, n)'s scaled distances: the maximum over the codewords taken from the bottom element, and the
    bottom element compared with it once more changes nothing. -/
theorem rowTop_at (x0 : (⟨S8x16384x128, .f32⟩ : BufTy).Contents (Elt Ideal)) (x1 : (⟨S128x128, .f32⟩ : BufTy).Contents (Elt Ideal))
    (x2 : (⟨S128, .f32⟩ : BufTy).Contents (Elt Ideal)) (b : Fin 8) (n : Fin 16384) :
    val_main_v18 (F := Ideal) x0 x1 x2 (ix2 b n) = rowTop (logit (matOf x1) (vecOf x2) (rowsOf x0 b n)) := by
  have h : S8x16384x128.Reduces [2] S8x16384 := by decide
  rw [val_main_v18_apply, val_main_v17_apply, val_main_cst_3_apply]
  unfold val_main_v16
  rw [Host.reduce_eq_fold_single FloatOps.maximumf _ _ reducesTo_S8x16384x128_S8x16384_d2 h h_S_, val_main_cst_2_apply]
  simp only [Ideal.maximumf_def, Ideal.ofBits_def, Cert.BitFolds.ofBits_neg_inf_f32, bot_sup_eq]
  unfold rowTop
  have hf : (val_main_v15 (F := Ideal) x0 x1 x2 ∘ h.lift (ix2 b n))
      = fun k : Fin 128 => logit (matOf x1) (vecOf x2) (rowsOf x0 b n) k :=
    funext fun k => by
      show val_main_v15 (F := Ideal) x0 x1 x2 (h.lift (ix2 b n) k) = _
      rw [lift_row h b n k, logit_at]
      rfl
  exact congrArg (fun f => Finset.fold max (⊥ : EReal) f (Finset.univ : Finset (Fin 128))) hf

/-! ## The soft assignment -/

/-- The exponential of a scaled distance minus the row's largest. -/
theorem shiftedExp_at (x0 : (⟨S8x16384x128, .f32⟩ : BufTy).Contents (Elt Ideal)) (x1 : (⟨S128x128, .f32⟩ : BufTy).Contents (Elt Ideal))
    (x2 : (⟨S128, .f32⟩ : BufTy).Contents (Elt Ideal)) (b : Fin 8) (n : Fin 16384) (k : Fin 128) :
    val_main_v22 (F := Ideal) x0 x1 x2 (ix3 b n k)
      = Ideal.exp (logit (matOf x1) (vecOf x2) (rowsOf x0 b n) k - rowTop (logit (matOf x1) (vecOf x2) (rowsOf x0 b n))) := by
  rw [val_main_v22_apply, val_main_v21_apply, val_main_v20_apply, val_main_v19_apply, logit_at]
  have e : idx_main_v19 (idx_main_v20 (ix3 b n k)) = ix2 b n :=
    funext fun a => Fin.ext (by match a with | ⟨0, _⟩ => rfl | ⟨1, _⟩ => rfl)
  rw [e, rowTop_at]
  rfl

/-- The sum of those exponentials along the codewords, broadcast back along them. -/
theorem expSum_at (x0 : (⟨S8x16384x128, .f32⟩ : BufTy).Contents (Elt Ideal)) (x1 : (⟨S128x128, .f32⟩ : BufTy).Contents (Elt Ideal))
    (x2 : (⟨S128, .f32⟩ : BufTy).Contents (Elt Ideal)) (b : Fin 8) (n : Fin 16384) (k : Fin 128) :
    val_main_v25 (F := Ideal) x0 x1 x2 (ix3 b n k)
      = ∑ k' : Fin 128, Ideal.exp (logit (matOf x1) (vecOf x2) (rowsOf x0 b n) k' - rowTop (logit (matOf x1) (vecOf x2) (rowsOf x0 b n))) := by
  rw [val_main_v25_apply, val_main_v24_apply, val_main_v23_apply, val_main_cst_4_apply]
  simp only [Ideal.ofBits_def, Ideal.ofBits_zero_f32, zero_add]
  refine Finset.sum_congr rfl fun k' _ => ?_
  have e : idx_main_v23 (idx_main_v24 (idx_main_v25 (ix3 b n k))) k' = ix3 b n k' :=
    funext fun a => Fin.ext (by match a with | ⟨0, _⟩ => rfl | ⟨1, _⟩ => rfl | ⟨2, _⟩ => rfl)
  rw [e, shiftedExp_at]

/-- The soft assignment of row (b, n) to codeword k. -/
theorem weight_at (x0 : (⟨S8x16384x128, .f32⟩ : BufTy).Contents (Elt Ideal)) (x1 : (⟨S128x128, .f32⟩ : BufTy).Contents (Elt Ideal))
    (x2 : (⟨S128, .f32⟩ : BufTy).Contents (Elt Ideal)) (b : Fin 8) (n : Fin 16384) (k : Fin 128) :
    val_main_v26 (F := Ideal) x0 x1 x2 (ix3 b n k) = weight (matOf x1) (vecOf x2) (rowsOf x0 b n) k := by
  rw [val_main_v26_apply, shiftedExp_at, expSum_at]
  rfl

/-! ## The result -/

/-- The weighted sum of the rows of batch b for codeword k, coordinate d. -/
theorem weightedRows_at (x0 : (⟨S8x16384x128, .f32⟩ : BufTy).Contents (Elt Ideal)) (x1 : (⟨S128x128, .f32⟩ : BufTy).Contents (Elt Ideal))
    (x2 : (⟨S128, .f32⟩ : BufTy).Contents (Elt Ideal)) (b : Fin 8) (k d : Fin 128) :
    val_main_v27 (F := Ideal) x0 x1 x2 (ix3 b k d)
      = ∑ n : Fin 16384, weight (matOf x1) (vecOf x2) (rowsOf x0 b n) k * rowsOf x0 b n d := by
  rw [val_main_v27_apply]
  refine Finset.sum_congr rfl fun n _ => ?_
  have el : lidx_main_v27 (ix3 b k d) n = ix3 b n k :=
    funext fun a => Fin.ext (by match a with | ⟨0, _⟩ => rfl | ⟨1, _⟩ => rfl | ⟨2, _⟩ => rfl)
  have er : ridx_main_v27 (ix3 b k d) n = ix3 b n d :=
    funext fun a => Fin.ext (by match a with | ⟨0, _⟩ => rfl | ⟨1, _⟩ => rfl | ⟨2, _⟩ => rfl)
  rw [el, er, weight_at]
  rfl

/-- The total weight batch b gives codeword k, broadcast along the coordinates. -/
theorem weightSum_at (x0 : (⟨S8x16384x128, .f32⟩ : BufTy).Contents (Elt Ideal)) (x1 : (⟨S128x128, .f32⟩ : BufTy).Contents (Elt Ideal))
    (x2 : (⟨S128, .f32⟩ : BufTy).Contents (Elt Ideal)) (b : Fin 8) (k d : Fin 128) :
    val_main_v31 (F := Ideal) x0 x1 x2 (ix3 b k d) = ∑ n : Fin 16384, weight (matOf x1) (vecOf x2) (rowsOf x0 b n) k := by
  rw [val_main_v31_apply, val_main_v29_apply, val_main_v28_apply, val_main_cst_5_apply]
  simp only [Ideal.ofBits_def, Ideal.ofBits_zero_f32, zero_add]
  refine Finset.sum_congr rfl fun n _ => ?_
  have e : idx_main_v28 (idx_main_v29 (idx_main_v31 (ix3 b k d))) n = ix3 b n k :=
    funext fun a => Fin.ext (by match a with | ⟨0, _⟩ => rfl | ⟨1, _⟩ => rfl | ⟨2, _⟩ => rfl)
  rw [e, weight_at]

/-- Codeword k's coordinate d, broadcast along the batches. -/
theorem code_at (x1 : (⟨S128x128, .f32⟩ : BufTy).Contents (Elt Ideal)) (b : Fin 8) (k d : Fin 128) :
    val_main_v32 (F := Ideal) x1 (ix3 b k d) = matOf x1 k d := by
  rw [val_main_v32_apply, val_main_v30_apply]
  unfold matOf
  have e : idx_main_v30 (idx_main_v32 (ix3 b k d)) = ix2 k d :=
    funext fun a => Fin.ext (by match a with | ⟨0, _⟩ => rfl | ⟨1, _⟩ => rfl)
  rw [e]

/-- The reference's result array is the encoding of its three arguments. -/
theorem reference_is_encode
    (x0 : (⟨S8x16384x128, .f32⟩ : BufTy).Contents (Elt Ideal)) (x1 : (⟨S128x128, .f32⟩ : BufTy).Contents (Elt Ideal))
    (x2 : (⟨S128, .f32⟩ : BufTy).Contents (Elt Ideal)) :
    val_main_v34 (F := Ideal) x0 x1 x2 = VqEncode.encodeArr x0 x1 x2 := by
  funext i
  obtain ⟨b, k, d, rfl⟩ : ∃ (b : Fin 8) (k d : Fin 128), i = ix3 b k d := ⟨i 0, i 1, i 2, eq_ix3 i⟩
  rw [encodeArr_apply, val_main_v34_apply, val_main_v33_apply, weightedRows_at, weightSum_at, code_at]
  rfl

end VqEncode.Ref

end
-- ==== Proof.Steps.lean ====
/-
  One grid point of the encoder, as functions of the blocks it is handed.

  A grid point (b, n) is handed tile n of batch b (4096 feature rows), the codewords, the scales and the codewords' squared
  norms, and two accumulators: a [128, 128] table of weighted feature sums and a [1, 128] row of weight sums. It adds the
  tile's contribution to each (`tileT`, `tileU`); the first tile of a batch starts them from zero, and the last tile
  stores "table minus weight-sum times codeword" as the batch's result. The lemmas say that what each of the three kinds of
  point (first, middle, last tile) leaves in each accumulator, and what the last one stores, are these functions.
-/
import proofs.«105869_j67671504716293_2_alg».proof.Proof.Gen.KernelIdeal.Frame
import Idealize.ShloMosaic.Lib.Pipeline.Value
import Idealize.ShloMosaic.Lib.Tactic

set_option maxRecDepth 16384

noncomputable section

/-! What one grid point leaves in the two accumulators, and what the last point of a batch stores. -/

namespace Cert.KernelIdeal.Steps

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

def tileT (x0 : Vec F S1x4096x128 .f32) (x1 : Vec F S128x128 .f32) (x2 : Vec F S1x128 .f32) (x3 : Vec F S1x128 .f32) (acc : Vec F S128x128 .f32) : Vec F S128x128 .f32 :=
  k0_pay2 (k0_pay7 x0) (k0_pay8 x0 x1 x2 x3) (k0_pay9 x0 x1 x2 x3) acc

def tileU (x0 : Vec F S1x4096x128 .f32) (x1 : Vec F S128x128 .f32) (x2 : Vec F S1x128 .f32) (x3 : Vec F S1x128 .f32) (acc : Vec F S1x128 .f32) : Vec F S1x128 .f32 :=
  k0_pay3 (k0_pay8 x0 x1 x2 x3) (k0_pay9 x0 x1 x2 x3) acc

theorem sout_B_0 (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128x128 .f32) (harg6 : arg6.IsWhole) (arg7 : Memref sig .tc .vmem S128x128 .f32) (harg7 : arg7.IsWhole) (arg8 : Memref sig .tc .vmem S1x128 .f32) (harg8 : arg8.IsWhole) (hc0 : ¬cond0_0 i) (hc1 : ¬cond0_1 i) (x0 : Vec F S1x4096x128 .f32) (x1 : Vec F S128x128 .f32) (x2 : Vec F S1x128 .f32) (x3 : Vec F S1x128 .f32) (xs0 : Vec F S128x128 .f32) (xs1 : Vec F S1x128 .f32) :
    sout0_B_0 c i arg2 harg2 arg3 harg3 arg4 harg4 arg5 harg5 arg6 harg6 arg7 harg7 arg8 harg8 hc0 hc1 x0 x1 x2 x3 xs0 xs1 = tileT x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  unfold tileT
  simp only [View.readAt_eq_ld, harg2.read_unread, harg3.read_unread, harg4.read_unread, harg5.read_unread, harg6.read_unread, harg7.read_unread, harg8.read_unread, View.ld_unit_zero (S := S128x128) hz2, View.ld_unit_zero (S := S1x128) hz2, View.ld_unit_zero (S := S1x4096x128) hz3, View.ld_unit_zero (S := S1x128x128) hz3]

theorem sout_B_1 (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128x128 .f32) (harg6 : arg6.IsWhole) (arg7 : Memref sig .tc .vmem S128x128 .f32) (harg7 : arg7.IsWhole) (arg8 : Memref sig .tc .vmem S1x128 .f32) (harg8 : arg8.IsWhole) (hc0 : ¬cond0_0 i) (hc1 : ¬cond0_1 i) (x0 : Vec F S1x4096x128 .f32) (x1 : Vec F S128x128 .f32) (x2 : Vec F S1x128 .f32) (x3 : Vec F S1x128 .f32) (xs0 : Vec F S128x128 .f32) (xs1 : Vec F S1x128 .f32) :
    sout0_B_1 c i arg2 harg2 arg3 harg3 arg4 harg4 arg5 harg5 arg6 harg6 arg7 harg7 arg8 harg8 hc0 hc1 x0 x1 x2 x3 xs0 xs1 = tileU x0 x1 x2 x3 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  unfold tileU
  simp only [View.readAt_eq_ld, harg2.read_unread, harg3.read_unread, harg4.read_unread, harg5.read_unread, harg6.read_unread, harg7.read_unread, harg8.read_unread, View.ld_unit_zero (S := S128x128) hz2, View.ld_unit_zero (S := S1x128) hz2, View.ld_unit_zero (S := S1x4096x128) hz3, View.ld_unit_zero (S := S1x128x128) hz3]

theorem sout_C_0 (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128x128 .f32) (harg6 : arg6.IsWhole) (arg7 : Memref sig .tc .vmem S128x128 .f32) (harg7 : arg7.IsWhole) (arg8 : Memref sig .tc .vmem S1x128 .f32) (harg8 : arg8.IsWhole) (hc0 : ¬cond0_0 i) (hc1 : cond0_1 i) (x0 : Vec F S1x4096x128 .f32) (x1 : Vec F S128x128 .f32) (x2 : Vec F S1x128 .f32) (x3 : Vec F S1x128 .f32) (xs0 : Vec F S128x128 .f32) (xs1 : Vec F S1x128 .f32) :
    sout0_C_0 c i arg2 harg2 arg3 harg3 arg4 harg4 arg5 harg5 arg6 harg6 arg7 harg7 arg8 harg8 hc0 hc1 x0 x1 x2 x3 xs0 xs1 = tileT x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  unfold tileT
  simp only [View.readAt_eq_ld, harg2.read_unread, harg3.read_unread, harg4.read_unread, harg5.read_unread, harg6.read_unread, harg7.read_unread, harg8.read_unread, View.ld_unit_zero (S := S128x128) hz2, View.ld_unit_zero (S := S1x128) hz2, View.ld_unit_zero (S := S1x4096x128) hz3, View.ld_unit_zero (S := S1x128x128) hz3]

theorem sout_C_1 (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128x128 .f32) (harg6 : arg6.IsWhole) (arg7 : Memref sig .tc .vmem S128x128 .f32) (harg7 : arg7.IsWhole) (arg8 : Memref sig .tc .vmem S1x128 .f32) (harg8 : arg8.IsWhole) (hc0 : ¬cond0_0 i) (hc1 : cond0_1 i) (x0 : Vec F S1x4096x128 .f32) (x1 : Vec F S128x128 .f32) (x2 : Vec F S1x128 .f32) (x3 : Vec F S1x128 .f32) (xs0 : Vec F S128x128 .f32) (xs1 : Vec F S1x128 .f32) :
    sout0_C_1 c i arg2 harg2 arg3 harg3 arg4 harg4 arg5 harg5 arg6 harg6 arg7 harg7 arg8 harg8 hc0 hc1 x0 x1 x2 x3 xs0 xs1 = tileU x0 x1 x2 x3 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  unfold tileU
  simp only [View.readAt_eq_ld, harg2.read_unread, harg3.read_unread, harg4.read_unread, harg5.read_unread, harg6.read_unread, harg7.read_unread, harg8.read_unread, View.ld_unit_zero (S := S128x128) hz2, View.ld_unit_zero (S := S1x128) hz2, View.ld_unit_zero (S := S1x4096x128) hz3, View.ld_unit_zero (S := S1x128x128) hz3]

theorem sout_A_0 (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128x128 .f32) (harg6 : arg6.IsWhole) (arg7 : Memref sig .tc .vmem S128x128 .f32) (harg7 : arg7.IsWhole) (arg8 : Memref sig .tc .vmem S1x128 .f32) (harg8 : arg8.IsWhole) (hc0 : cond0_0 i) (hc1 : ¬cond0_1 i) (x0 : Vec F S1x4096x128 .f32) (x1 : Vec F S128x128 .f32) (x2 : Vec F S1x128 .f32) (x3 : Vec F S1x128 .f32) :
    sout0_A_0 c i arg2 harg2 arg3 harg3 arg4 harg4 arg5 harg5 arg6 harg6 arg7 harg7 arg8 harg8 hc0 hc1 x0 x1 x2 x3 = tileT x0 x1 x2 x3 (k0_pay5 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S128x128) hz2, View.readCov_unit_zero (S := S128x128) _ hz2]
  unfold tileT
  simp only [View.readAt_eq_ld, harg2.read_unread, harg3.read_unread, harg4.read_unread, harg5.read_unread, harg6.read_unread, harg7.read_unread, harg8.read_unread, View.ld_unit_zero (S := S128x128) hz2, View.ld_unit_zero (S := S1x128) hz2, View.ld_unit_zero (S := S1x4096x128) hz3, View.ld_unit_zero (S := S1x128x128) hz3]

theorem sout_A_1 (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128x128 .f32) (harg6 : arg6.IsWhole) (arg7 : Memref sig .tc .vmem S128x128 .f32) (harg7 : arg7.IsWhole) (arg8 : Memref sig .tc .vmem S1x128 .f32) (harg8 : arg8.IsWhole) (hc0 : cond0_0 i) (hc1 : ¬cond0_1 i) (x0 : Vec F S1x4096x128 .f32) (x1 : Vec F S128x128 .f32) (x2 : Vec F S1x128 .f32) (x3 : Vec F S1x128 .f32) :
    sout0_A_1 c i arg2 harg2 arg3 harg3 arg4 harg4 arg5 harg5 arg6 harg6 arg7 harg7 arg8 harg8 hc0 hc1 x0 x1 x2 x3 = tileU x0 x1 x2 x3 (k0_pay6 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x128) hz2, View.readCov_unit_zero (S := S1x128) _ hz2]
  unfold tileU
  simp only [View.readAt_eq_ld, harg2.read_unread, harg3.read_unread, harg4.read_unread, harg5.read_unread, harg6.read_unread, harg7.read_unread, harg8.read_unread, View.ld_unit_zero (S := S128x128) hz2, View.ld_unit_zero (S := S1x128) hz2, View.ld_unit_zero (S := S1x4096x128) hz3, View.ld_unit_zero (S := S1x128x128) hz3]

theorem out_C_4 (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128x128 .f32) (harg6 : arg6.IsWhole) (arg7 : Memref sig .tc .vmem S128x128 .f32) (harg7 : arg7.IsWhole) (arg8 : Memref sig .tc .vmem S1x128 .f32) (harg8 : arg8.IsWhole) (hc0 : ¬cond0_0 i) (hc1 : cond0_1 i) (x0 : Vec F S1x4096x128 .f32) (x1 : Vec F S128x128 .f32) (x2 : Vec F S1x128 .f32) (x3 : Vec F S1x128 .f32) (xs0 : Vec F S128x128 .f32) (xs1 : Vec F S1x128 .f32) :
    out0_C_4 c i arg2 harg2 arg3 harg3 arg4 harg4 arg5 harg5 arg6 harg6 arg7 harg7 arg8 harg8 hc0 hc1 x0 x1 x2 x3 xs0 xs1 = k0_pay4 x1 (tileU x0 x1 x2 x3 xs1) (tileT x0 x1 x2 x3 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz3, View.readCov_unit_zero (S := S1x128) arg8.view hz2, View.readCov_unit_zero (S := S128x128) arg7.view hz2]
  unfold tileT tileU
  simp only [View.readAt_eq_ld, harg2.read_unread, harg3.read_unread, harg4.read_unread, harg5.read_unread, harg6.read_unread, harg7.read_unread, harg8.read_unread, View.ld_unit_zero (S := S128x128) hz2, View.ld_unit_zero (S := S1x128) hz2, View.ld_unit_zero (S := S1x4096x128) hz3, View.ld_unit_zero (S := S1x128x128) hz3]

end Cert.KernelIdeal.Steps

end
-- ==== Proof.Blocks.lean ====
/-
  What each grid point of the encoder is handed, at the extended reals.

  Point t of the 8 x 4 grid is handed tile (t mod 4) of batch (t div 4) of the features — rows 4096 (t mod 4) to
  4096 (t mod 4) + 4095 —, all the codewords, the scales (the argument recast as one row), and each codeword's squared norm
  (summed by the host from zero, broadcast to a column and recast as one row).
-/
import proofs.«105869_j67671504716293_2_alg».proof.Proof.Gen.KernelIdeal.Frame
import proofs.«105869_j67671504716293_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Facts₀ Facts

variable (m : (ℓ : Loc nD τ sig) → Buf (Elt Ideal) ℓ)

/-- The printed index maps over the 8 x 4 grid: point t is tile t mod 4 of batch t div 4; the codewords, scales and squared
    norms are one block each; the result's block is batch t div 4. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = 0 ∧ win0_4.index t (2 : Fin 3) = 0 :=
  (by decide +kernel : ∀ t : Fin grid0.N, _)

/-- The batch and the tile of a grid point. -/
def batchOf (t : Fin cfg0.N) : Fin 8 := ⟨t.val / 4, by have := lt_of_lt_of_eq t.isLt (show cfg0.N = 32 from N_0); omega⟩
def tileOf (t : Fin cfg0.N) : Fin 4 := ⟨t.val % 4, by omega⟩

/-- Tile (t mod 4) of batch (t div 4): the feature rows point t is handed. -/
theorem blk0 (c : Dev nD) (t : Fin cfg0.N) (u : Fin 1) (r : Fin 4096) (d : Fin 128) :
    (iblk m c 0 t : Vec Ideal S1x4096x128 .f32) (ix3 u r d)
      = m ((c : Thread nD τ).loc main_arg0) (ix3 (batchOf t) (VqEncode.tileRow (tileOf t) r) d) := by
  obtain ⟨e0, e1, e2, -⟩ := idx_facts t
  unfold iblk
  rw [View.read_apply]
  show V m c main_arg0 _ = _
  rw [V_main_arg0]
  congr 1
  funext a
  apply Fin.ext
  have hu : u.val = 0 := by omega
  match a with
  | ⟨0, _⟩ => show win0_0.index t (0 : Fin 3) * 1 + 1 * u.val = t.val / 4; rw [e0]; omega
  | ⟨1, _⟩ => show win0_0.index t (1 : Fin 3) * 4096 + 1 * r.val = 4096 * (t.val % 4) + r.val; rw [e1]; omega
  | ⟨2, _⟩ => show win0_0.index t (2 : Fin 3) * 128 + 1 * d.val = d.val; rw [e2]; omega

/-- Every point is handed all the codewords. -/
theorem blk1 (c : Dev nD) (t : Fin cfg0.N) (k d : Fin 128) :
    (iblk m c 1 t : Vec Ideal S128x128 .f32) (ix2 k d) = m ((c : Thread nD τ).loc main_arg1) (ix2 k d) := by
  obtain ⟨-, -, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * d.val = d.val; rw [e1]; omega

/-- The scales as the region finds them: the argument recast as one row. -/
theorem V_scales (c : Dev nD) : (V m c main_v0 : S1x128.Idx → EReal)
    = shapeCast S1x128 (m ((c : Thread nD τ).loc main_arg2)) Facts₀.shapeCasts_S128_S1x128 := by
  dsimp only [Gen.V, Gen.hostOps0]
  after_results
  rfl

/-- Every point is handed the scales, one per codeword. -/
theorem blk2 (c : Dev nD) (t : Fin cfg0.N) (u : Fin 1) (k : Fin 128) :
    (iblk m c 2 t : Vec Ideal S1x128 .f32) (ix2 u k) = m ((c : Thread nD τ).loc main_arg2) (ix1 k) := by
  obtain ⟨-, -, -, -, -, e0, e1, -⟩ := idx_facts t
  unfold iblk
  rw [View.read_apply]
  show V m c main_v0 _ = _
  rw [V_scales]
  have hu : u.val = 0 := by omega
  have he : ((cfg0.win 2).blk t).view.emb (ix2 u k) = ix2 (0 : Fin 1) k := by
    funext a
    apply Fin.ext
    match a with
    | ⟨0, _⟩ => show win0_2.index t (0 : Fin 2) * 1 + 1 * u.val = 0; rw [e0]; omega
    | ⟨1, _⟩ => show win0_2.index t (1 : Fin 2) * 128 + 1 * k.val = k.val; rw [e1]; omega
  rw [he, shapeCast_a_1a_apply]

/-- The squared norms as the region finds them: each codeword's sum of squares, laid out as one row. -/
theorem V_norms (c : Dev nD) : (V m c main_v4 : S1x128.Idx → EReal)
    = shapeCast S1x128 (broadcastInDim S128x1 ![0] Facts₀.bcast_S128_S128x1_0
        (Host.reduceAdd (F := Ideal) (mulf (m ((c : Thread nD τ).loc main_arg1)) (m ((c : Thread nD τ).loc main_arg1)))
          (constant (F := Ideal) S_ .f32 0x00000000#32) Facts₀.reducesTo_S128x128_S128_d1 Facts₀.h_S_))
        Facts₀.shapeCasts_S128x1_S1x128 := by
  dsimp only [Gen.V, Gen.hostOps0]
  after_results
  rfl

/-- A codeword's sum of squares, as the host computes it. -/
theorem norm_apply (C : FVec Ideal S128x128 .f32) (k : Fin 128) :
    Host.reduceAdd (F := Ideal) (mulf C C) (constant (F := Ideal) S_ .f32 0x00000000#32) Facts₀.reducesTo_S128x128_S128_d1 Facts₀.h_S_ (ix1 k)
      = VqEncode.dot (fun d => C (ix2 k d)) (fun d => C (ix2 k d)) := by
  simp only [Host.reduceAdd, Ideal.hostReduceAdd_def]
  rw [Ideal.hostReduceAdd_single Facts₀.reducesTo_S128x128_S128_d1 (by decide)]
  show Ideal.ofBits .f32 0x00000000#32 + _ = _
  rw [Ideal.ofBits_zero_f32, zero_add]
  unfold VqEncode.dot
  refine Finset.sum_congr rfl fun d _ => ?_
  show C _ * C _ = _
  have e : ∀ h : S128x128.Reduces [1] S128, h.lift (ix1 k) d = ix2 k d := fun h =>
    funext fun a => Fin.ext (by match a with | ⟨0, _⟩ => rfl | ⟨1, _⟩ => rfl)
  rw [e]
  rfl

/-- Every point is handed the codewords' squared norms. -/
theorem blk3 (c : Dev nD) (t : Fin cfg0.N) (u : Fin 1) (k : Fin 128) :
    (iblk m c 3 t : Vec Ideal S1x128 .f32) (ix2 u k)
      = VqEncode.dot (fun d => m ((c : Thread nD τ).loc main_arg1) (ix2 k d)) (fun d => m ((c : Thread nD τ).loc main_arg1) (ix2 k d)) := by
  obtain ⟨-, -, -, -, -, -, -, e0, e1, -⟩ := idx_facts t
  unfold iblk
  rw [View.read_apply]
  show V m c main_v4 _ = _
  rw [V_norms]
  have hu : u.val = 0 := by omega
  have he : ((cfg0.win 3).blk t).view.emb (ix2 u k) = ix2 (0 : Fin 1) k := by
    funext a
    apply Fin.ext
    match a with
    | ⟨0, _⟩ => show win0_3.index t (0 : Fin 2) * 1 + 1 * u.val = 0; rw [e0]; omega
    | ⟨1, _⟩ => show win0_3.index t (1 : Fin 2) * 128 + 1 * k.val = k.val; rw [e1]; omega
  rw [he]
  rw [shapeCast_apply _ _ (ix2 (0 : Fin 1) k) (ix2 k (0 : Fin 1)) (by
    rw [Shape.rowMajor_val_two, Shape.rowMajor_val_two]
    show k.val * 1 + 0 = 0 * 128 + k.val
    omega)]
  rw [broadcastInDim_apply _ _ _ (ix2 k (0 : Fin 1)) (ix1 k) (fun a => by
    match a with
    | ⟨0, _⟩ =>
      show k.val = if (128 : ℕ) = 1 then 0 else k.val
      rw [if_neg (by decide)])]
  exact norm_apply _ k

end Cert.KernelIdeal.Blocks

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.TileDots.lean ====
/-
  The two matrix products of one tile, read at an entry, on the extended reals.

  Distances: a [4096, 128] block of feature rows against the [128, 128] codewords along the feature axis of both —
  entry (r, k) is the sum over d of x[r, d] * c[k, d]. Aggregation: a [4096, 128] block of weights against the same rows
  along the ROW axis of both — entry (k, d) is the sum over r of a[r, k] * x[r, d]. Both start from the zero splat.
-/
import proofs.«105869_j67671504716293_2_alg».proof.Proof.Gen.KernelIdeal
import proofs.«105869_j67671504716293_2_alg».proof.Proof.LibDotLastAxes
import Idealize.ShloMosaic.PureOps.Ideal.Laws
import Idealize.ShloMosaic.Lib.ValueIdx

noncomputable section

open scoped BigOperators

namespace Cert.KernelIdeal.TileDots

open Cert.KernelIdeal Cert.KernelIdeal.Gen Idealize.ShloMosaic Idealize.ShloMosaic.ValueIdx

variable {φ₁ φ₂ : FTy}

/-- Feature rows against codewords: entry (r, k) is the inner product of row r and codeword k. -/
theorem rowsByCodewords (lhs : FVec Ideal S4096x128 φ₁) (rhs : FVec Ideal S128x128 φ₂) (r : Fin 4096) (k : Fin 128) :
    FloatOps.matmul dot_S4096x128_S128x128_S4096x128_1_1_0_0_n_n none lhs rhs (constant (F := Ideal) S4096x128 .f32 0x00000000#32) (ix2 r k)
      = ∑ d : Fin 128, lhs (ix2 r d) * rhs (ix2 k d) :=
  Idealize.ShloMosaic.DotLastAxes.matmul_zero_apply dot_S4096x128_S128x128_S4096x128_1_1_0_0_n_n rfl rfl
    (fun j q => by
      unfold DotDims.lhsIdx
      rw [dif_neg (show ¬(0 : Fin S4096x128.rank) ∈ dot_S4096x128_S128x128_S4096x128_1_1_0_0_n_n.lhsBatch by decide), dif_pos (show (0 : Fin S4096x128.rank) ∈ dot_S4096x128_S128x128_S4096x128_1_1_0_0_n_n.lhsNonContracting by decide)]
      rfl)
    (fun j q => dot_S4096x128_S128x128_S4096x128_1_1_0_0_n_n.lhsIdx_val_of_single rfl j q)
    (fun j q => by
      unfold DotDims.rhsIdx
      rw [dif_neg (show ¬(0 : Fin S128x128.rank) ∈ dot_S4096x128_S128x128_S4096x128_1_1_0_0_n_n.rhsBatch by decide), dif_pos (show (0 : Fin S128x128.rank) ∈ dot_S4096x128_S128x128_S4096x128_1_1_0_0_n_n.rhsNonContracting by decide)]
      rfl)
    (fun j q => dot_S4096x128_S128x128_S4096x128_1_1_0_0_n_n.rhsIdx_val_of_single rfl j q)
    none lhs rhs r k

/-- In the aggregation product the left operand's second coordinate is the result's row, -/
theorem aggLhs1 (j : S128x128.Idx) (q : dot_S4096x128_S4096x128_S128x128_0_0_1_1_n_n.contr.Idx) : (dot_S4096x128_S4096x128_S128x128_0_0_1_1_n_n.lhsIdx j q 1).val = (j 0).val := by
  unfold DotDims.lhsIdx
  rw [dif_neg (show ¬(1 : Fin S4096x128.rank) ∈ dot_S4096x128_S4096x128_S128x128_0_0_1_1_n_n.lhsBatch by decide), dif_pos (show (1 : Fin S4096x128.rank) ∈ dot_S4096x128_S4096x128_S128x128_0_0_1_1_n_n.lhsNonContracting by decide)]
  rfl

/-- and the right operand's second coordinate is the result's column. -/
theorem aggRhs1 (j : S128x128.Idx) (q : dot_S4096x128_S4096x128_S128x128_0_0_1_1_n_n.contr.Idx) : (dot_S4096x128_S4096x128_S128x128_0_0_1_1_n_n.rhsIdx j q 1).val = (j 1).val := by
  unfold DotDims.rhsIdx
  rw [dif_neg (show ¬(1 : Fin S4096x128.rank) ∈ dot_S4096x128_S4096x128_S128x128_0_0_1_1_n_n.rhsBatch by decide), dif_pos (show (1 : Fin S4096x128.rank) ∈ dot_S4096x128_S4096x128_S128x128_0_0_1_1_n_n.rhsNonContracting by decide)]
  rfl

/-- Weights against feature rows, along the rows: entry (k, d) is the sum over the tile's rows of weight times feature. -/
theorem weightsByRows (lhs : FVec Ideal S4096x128 φ₁) (rhs : FVec Ideal S4096x128 φ₂) (k d : Fin 128) :
    FloatOps.matmul dot_S4096x128_S4096x128_S128x128_0_0_1_1_n_n none lhs rhs (constant (F := Ideal) S128x128 .f32 0x00000000#32) (ix2 k d)
      = ∑ r : Fin 4096, lhs (ix2 r k) * rhs (ix2 r d) := by
  rw [Ideal.matmul_constant_zero_apply, ← Equiv.sum_comp (contrEquiv1 dot_S4096x128_S4096x128_S128x128_0_0_1_1_n_n 4096 rfl rfl).symm]
  refine Finset.sum_congr rfl fun r _ => ?_
  have hk := contrEquiv1_symm_val dot_S4096x128_S4096x128_S128x128_0_0_1_1_n_n 4096 rfl rfl r
  have el : dot_S4096x128_S4096x128_S128x128_0_0_1_1_n_n.lhsIdx (ix2 k d) ((contrEquiv1 dot_S4096x128_S4096x128_S128x128_0_0_1_1_n_n 4096 rfl rfl).symm r) = ix2 r k := funext fun a => Fin.ext (by
    match a with
    | ⟨0, _⟩ => exact (dot_S4096x128_S4096x128_S128x128_0_0_1_1_n_n.lhsIdx_val_of_single rfl _ _).trans hk
    | ⟨1, _⟩ => exact aggLhs1 _ _)
  have er : dot_S4096x128_S4096x128_S128x128_0_0_1_1_n_n.rhsIdx (ix2 k d) ((contrEquiv1 dot_S4096x128_S4096x128_S128x128_0_0_1_1_n_n 4096 rfl rfl).symm r) = ix2 r d := funext fun a => Fin.ext (by
    match a with
    | ⟨0, _⟩ => exact (dot_S4096x128_S4096x128_S128x128_0_0_1_1_n_n.rhsIdx_val_of_single rfl _ _).trans hk
    | ⟨1, _⟩ => exact aggRhs1 _ _)
  rw [el, er]

end Cert.KernelIdeal.TileDots

end
-- ==== Proof.LibColSum.lean ====
/-
  A sum down the columns of a matrix, read at a column.

  Summing a [a, b] matrix over its FIRST axis gives a vector of length b whose entry j is Σ_k x[k, j]. Over the
  extended reals this holds of the vector unit's add-reduction whatever order it sums in: addition of extended
  reals is commutative and associative, so the reduction is the finite sum over the dropped axis's coordinates,
  and the source index lying over column j with row k put back is (k, j).
-/
import Idealize.ShloMosaic.PureOps.Ideal.Laws
import Idealize.ShloMosaic.Lib.ValueIdx

noncomputable section

open scoped BigOperators

namespace Idealize.ShloMosaic.ColSum

open Idealize.ShloMosaic Idealize.ShloMosaic.ValueIdx

variable {a b : ℕ}

/-- The source index over column `j` with row `k` inserted on the dropped axis is `(k, j)`. -/
theorem lift_col (h : (⟨2, ![a, b]⟩ : Shape).Reduces [0] ⟨1, ![b]⟩) (j : Fin b) (k : Fin a) :
    h.lift (ix1 j) k = ix2 k j :=
  funext fun c => Fin.ext (by match c with | ⟨0, _⟩ => rfl | ⟨1, _⟩ => rfl)

/-- THE COLUMN SUM: an f32 add-reduction of a [a, b] matrix over its rows, from the zero word, has at column `j`
    the entry Σ_k x[k, j]. The accumulator's side condition is taken as the equation between the two zero words
    that a printed reduction carries. -/
theorem colSum_apply (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  exact Finset.sum_congr rfl fun k _ => congrArg src (lift_col h j k)

end Idealize.ShloMosaic.ColSum

end
-- ==== Proof.TileValue.lean ====
/-
  One tile of the encoder at the extended reals, entry by entry.

  From the blocks a grid point is handed — 4096 feature rows x, the codewords c, the scales s and the codewords' squared
  norms c2 — the point computes, for each row r: the scaled squared distances s_k * ((|x_r|^2 + c2_k) - 2 <x_r, c_k>), the
  inner product taken in three passes; their largest; the exponentials of the differences to it; the row's sum of those;
  and the quotients, the soft assignment a[r, k] of row r to codeword k. It then adds sum_r a[r, k] * x[r, d] (again in
  three passes) to a [128, 128] table and sum_r a[r, k] to a [1, 128] row; and the last point of a batch stores
  table[k, d] - row[k] * c[k, d]. On real inputs the three passes are one pass and a[r, k] is the encoder's weight.
-/
import proofs.«105869_j67671504716293_2_alg».proof.Proof.Steps
import proofs.«105869_j67671504716293_2_alg».proof.Proof.Spec
import proofs.«105869_j67671504716293_2_alg».proof.Proof.TileDots
import proofs.«105869_j67671504716293_2_alg».proof.Proof.LibSoftmaxRows
import proofs.«105869_j67671504716293_2_alg».proof.Proof.LibColSum
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.TileValue

open Cert.KernelIdeal Cert.KernelIdeal.Gen Cert.KernelIdeal.Steps Idealize.ShloMosaic Idealize.ShloMosaic.ValueIdx VqEncode Cert.SoftmaxLib

variable (x0 : Vec Ideal S1x4096x128 .f32) (x1 : Vec Ideal S128x128 .f32) (x2 x3 : Vec Ideal S1x128 .f32)

/-- The blocks read by coordinates: the tile's rows, the codewords, and a one-row block's entries. -/
def rows : Fin 4096 → Fin 128 → EReal := fun r d => x0 (ix3 (0 : Fin 1) r d)
def cw : Fin 128 → Fin 128 → EReal := fun k d => x1 (ix2 k d)
def rowOf (x : Vec Ideal S1x128 .f32) : Fin 128 → EReal := fun k => x (ix2 (0 : Fin 1) k)

/-- The tile's block with its leading unit axis dropped. -/
theorem pay7_at (r : Fin 4096) (d : Fin 128) : k0_pay7 x0 (ix2 r d) = rows x0 r d := by
  unfold k0_pay7
  exact shapeCast_1ab_ab_apply x0 _ r d

/-- The scaled squared distances of the tile's rows to the codewords, the cross term in three passes. -/
theorem pay8_at (r : Fin 4096) (k : Fin 128) :
    k0_pay8 x0 x1 x2 x3 (ix2 r k) = logit3 (cw x1) (rowOf x2) (rowOf x3) (rows x0 r) k := by
  unfold k0_pay8
  simp only [mulf_apply, subf_apply, addf_apply, broadcast_apply, matmul]
  rw [broadcastTo_1b_ab_apply, shapeCast_self, Cert.SoftmaxLib.rowSum_at, broadcastTo_1b_ab_apply, shapeCast_self,
    TileDots.rowsByCodewords, TileDots.rowsByCodewords, TileDots.rowsByCodewords]
  simp only [truncf_apply, subf_apply, mulf_apply, pay7_at]
  rfl

/-- A maximum against the bottom word changes nothing. -/
theorem max_neg_inf (v : FVec Ideal S4096 .f32) :
    maximumf (broadcast S4096 (Scalar.ofBits (F := Ideal) .f32 0xFF800000#32)) v = v := by
  funext j
  show max (Ideal.ofBits .f32 0xFF800000#32) (v j) = v j
  rw [Cert.BitFolds.ofBits_neg_inf_f32, max_bot_left]

/-- The row maximum kept as a column and spread along the row, read at (q, k), with the bottom word's side condition as a
    printed reduction carries it. -/
theorem rowMax_printed {a b : ℕ} (s : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .maximumf [1] ⟨1, ![a]⟩ s 0xFF800000#32 h hφ hacc) hc) hb (ix2 q k)
      = rowTop (fun k' : Fin b => s (ix2 q k')) :=
  Cert.SoftmaxLib.rowMax_at s h hφ hacc hc hb q k

/-- The largest distance of each row, spread along the row. -/
theorem pay9_at (r : Fin 4096) (k : Fin 128) :
    k0_pay9 x0 x1 x2 x3 (ix2 r k) = rowTop (logit3 (cw x1) (rowOf x2) (rowOf x3) (rows x0 r)) := by
  unfold k0_pay9
  simp only [max_neg_inf]
  rw [rowMax_printed]
  exact congrArg rowTop (funext fun k' => pay8_at x0 x1 x2 x3 r k')

/-- The soft assignment of row r of the tile to codeword k, as the tile computes it. -/
def weightOf (r : Fin 4096) (k : Fin 128) : EReal := rowWeight (logit3 (cw x1) (rowOf x2) (rowOf x3) (rows x0 r)) k

/-- The weights: exponentials of the distances less their row maximum, over their row sum. -/
theorem pay1_at (r : Fin 4096) (k : Fin 128) :
    k0_pay1 (k0_pay8 x0 x1 x2 x3) (k0_pay9 x0 x1 x2 x3) (ix2 r k) = weightOf x0 x1 x2 x3 r k := by
  unfold k0_pay1
  rw [divf_apply, Cert.SoftmaxLib.rowSum_at]
  have he : ∀ k' : Fin 128, exp (subf (k0_pay8 x0 x1 x2 x3) (k0_pay9 x0 x1 x2 x3)) (ix2 r k')
      = Ideal.exp (logit3 (cw x1) (rowOf x2) (rowOf x3) (rows x0 r) k' - rowTop (logit3 (cw x1) (rowOf x2) (rowOf x3) (rows x0 r))) := fun k' => by
    show Ideal.exp (k0_pay8 x0 x1 x2 x3 (ix2 r k') - k0_pay9 x0 x1 x2 x3 (ix2 r k')) = _
    rw [pay8_at, pay9_at]
  rw [he]
  unfold weightOf rowWeight
  exact congrArg (Ideal.div _) (Finset.sum_congr rfl fun k' _ => he k')

/-- What a point adds to the table of weighted feature sums: at (k, d) the three-pass product of column k of the weights
    with column d of the tile's rows. -/
theorem tileT_at (acc : Vec Ideal S128x128 .f32) (k d : Fin 128) :
    tileT x0 x1 x2 x3 acc (ix2 k d) = acc (ix2 k d) + dot3 (fun r => weightOf x0 x1 x2 x3 r k) (fun r => rows x0 r d) := by
  unfold tileT k0_pay2
  rw [shapeCast_self]
  simp only [addf_apply, matmul]
  rw [TileDots.weightsByRows, TileDots.weightsByRows, TileDots.weightsByRows]
  simp only [truncf_apply, subf_apply, pay1_at, pay7_at]
  rfl

/-- What a point adds to the row of weight sums: at k the sum of column k of the weights. -/
theorem tileU_at (acc : Vec Ideal S1x128 .f32) (u : Fin 1) (k : Fin 128) :
    tileU x0 x1 x2 x3 acc (ix2 u k) = acc (ix2 u k) + ∑ r, weightOf x0 x1 x2 x3 r k := by
  unfold tileU k0_pay3
  rw [shapeCast_self, addf_apply, shapeCast_a_1a_apply, Idealize.ShloMosaic.ColSum.colSum_apply]
  exact congrArg (acc (ix2 u k) + ·) (Finset.sum_congr rfl fun r _ => pay1_at x0 x1 x2 x3 r k)

/-- What the last point of a batch stores: the table less the weight sums times the codewords. -/
theorem pay4_at (uu : Vec Ideal S1x128 .f32) (tt : Vec Ideal S128x128 .f32) (u : Fin 1) (k d : Fin 128) :
    k0_pay4 x1 uu tt (ix3 u k d) = tt (ix2 k d) - uu (ix2 (0 : Fin 1) k) * x1 (ix2 k d) := by
  unfold k0_pay4
  rw [shapeCast_ab_1ab_apply, subf_apply, mulf_apply, Cert.LayoutKeepdims.broadcastTo_a1_ab_apply, transpose_ix2_apply]

/-- The two accumulators start a batch at zero. -/
theorem pay5_at (k d : Fin 128) : k0_pay5 (F := Ideal) (ix2 k d) = 0 := by
  unfold k0_pay5
  rw [shapeCast_self]
  exact Ideal.ofBits_zero_f32

theorem pay6_at (u : Fin 1) (k : Fin 128) : k0_pay6 (F := Ideal) (ix2 u k) = 0 := by
  unfold k0_pay6
  rw [shapeCast_self]
  exact Ideal.ofBits_zero_f32

/-! ## On real inputs the three passes are one and the weights are the encoder's -/

section Real

variable (hx : ∀ r d, IsReal (rows x0 r d)) (hC : ∀ k d, IsReal (cw x1 k d)) (hS : ∀ k, IsReal (rowOf x2 k))
  (h3 : ∀ k, rowOf x3 k = dot (cw x1 k) (cw x1 k))

include hx hC hS h3

theorem weightOf_eq (r : Fin 4096) (k : Fin 128) : weightOf x0 x1 x2 x3 r k = weight (cw x1) (rowOf x2) (rows x0 r) k := by
  unfold weightOf weight
  refine congrArg (fun s => rowWeight s k) (funext fun k' => ?_)
  rw [logit3_eq _ _ _ _ hC (hx r)]
  unfold logit
  exact congrArg (fun c2 => logitWith (cw x1) (rowOf x2) c2 (rows x0 r) k') (funext h3)

theorem tileT_real (acc : Vec Ideal S128x128 .f32) (k d : Fin 128) :
    tileT x0 x1 x2 x3 acc (ix2 k d) = acc (ix2 k d) + ∑ r, weight (cw x1) (rowOf x2) (rows x0 r) k * rows x0 r d := by
  rw [tileT_at, dot3_eq _ _ (fun r => by
    rw [weightOf_eq x0 x1 x2 x3 hx hC hS h3]; exact isReal_weight _ _ _ hC hS (hx r) k) (fun r => hx r d)]
  unfold dot
  refine congrArg (acc (ix2 k d) + ·) (Finset.sum_congr rfl fun r _ => ?_)
  show weightOf x0 x1 x2 x3 r k * rows x0 r d = _
  rw [weightOf_eq x0 x1 x2 x3 hx hC hS h3]

theorem tileU_real (acc : Vec Ideal S1x128 .f32) (u : Fin 1) (k : Fin 128) :
    tileU x0 x1 x2 x3 acc (ix2 u k) = acc (ix2 u k) + ∑ r, weight (cw x1) (rowOf x2) (rows x0 r) k := by
  rw [tileU_at]
  exact congrArg (acc (ix2 u k) + ·) (Finset.sum_congr rfl fun r _ => weightOf_eq x0 x1 x2 x3 hx hC hS h3 r k)

end Real

end Cert.KernelIdeal.TileValue

end
-- ==== Proof.KernelValue.lean ====
/-
  The encoder kernel's result array, at the extended reals, when every input entry is a real number.

  Grid point t = 4 b + n handles tile n of batch b. Its two accumulators hold, after it, what they held after the point before
  (zero at a batch's first tile) plus the tile's sums: sum over the tile's rows of weight * feature, and of weight. So after
  a batch's last tile they hold the sums over all four tiles, that is over all 16384 rows; that point stores
  table - weight sums * codewords into block b of the result, which is the encoding of batch b. The eight
  batches' blocks cover the result array.
-/
import proofs.«105869_j67671504716293_2_alg».proof.Proof.Gen.KernelIdeal.Value
import proofs.«105869_j67671504716293_2_alg».proof.Proof.Steps
import proofs.«105869_j67671504716293_2_alg».proof.Proof.Blocks
import proofs.«105869_j67671504716293_2_alg».proof.Proof.TileValue
import proofs.«105869_j67671504716293_2_alg».proof.Proof.Spec
import Idealize.ShloMosaic.Lib.Pipeline.Value
import Idealize.ShloMosaic.Lib.ValueIdx

set_option maxRecDepth 16384

noncomputable section

open scoped BigOperators

namespace Cert.KernelIdeal.Encoded

open Cert.KernelIdeal Cert.KernelIdeal.Gen Cert.KernelIdeal.Steps Cert.KernelIdeal.Blocks Cert.KernelIdeal.TileValue
open Idealize.ShloMosaic Idealize.ShloMosaic.TcCoe Idealize.SL.Sem Idealize.ShloMosaic.ValueIdx VqEncode
open Idealize.ShloMosaic.Pipeline (Dat)

variable (m : (ℓ : Loc nD τ sig) → Buf (Elt Ideal) ℓ) (ρ : Dev nD → PrngReg) (c : Dev nD)

/-- The three arguments on a core, by coordinates. -/
def X : Fin 8 → Fin 16384 → Fin 128 → EReal := rowsOf (m ((c : Thread nD τ).loc main_arg0))
def C : Fin 128 → Fin 128 → EReal := matOf (m ((c : Thread nD τ).loc main_arg1))
def S : Fin 128 → EReal := vecOf (m ((c : Thread nD τ).loc main_arg2))

/-- Tile n of batch b contributes these sums over its 4096 rows. -/
def tileSumT (b : Fin 8) (n : Fin 4) (k d : Fin 128) : EReal :=
  ∑ r, weight (C m c) (S m c) (X m c b (tileRow n r)) k * X m c b (tileRow n r) d
def tileSumU (b : Fin 8) (n : Fin 4) (k : Fin 128) : EReal :=
  ∑ r, weight (C m c) (S m c) (X m c b (tileRow n r)) k

/-! ## What a point is handed, as functions of coordinates -/

theorem rows_blk (t : Fin cfg0.N) : rows (iblk m c 0 t) = fun r d => X m c (batchOf t) (tileRow (tileOf t) r) d :=
  funext fun r => funext fun d => blk0 m c t 0 r d
theorem cw_blk (t : Fin cfg0.N) : cw (iblk m c 1 t) = C m c :=
  funext fun k => funext fun d => blk1 m c t k d
theorem scales_blk (t : Fin cfg0.N) : rowOf (iblk m c 2 t) = S m c :=
  funext fun k => blk2 m c t 0 k
theorem norms_blk (t : Fin cfg0.N) (k : Fin 128) : rowOf (iblk m c 3 t) k = dot (cw (iblk m c 1 t) k) (cw (iblk m c 1 t) k) := by
  rw [cw_blk]
  exact blk3 m c t 0 k

section Real

variable (hX : ∀ i, IsReal ((m ((c : Thread nD τ).loc main_arg0)) i)) (hC : ∀ i, IsReal ((m ((c : Thread nD τ).loc main_arg1)) i)) (hS : ∀ i, IsReal ((m ((c : Thread nD τ).loc main_arg2)) i))

include hX hC hS

/-! ## One point's step -/

theorem stepT (t : Fin cfg0.N) (acc : Vec Ideal S128x128 .f32) (k d : Fin 128) :
    tileT (iblk m c 0 t) (iblk m c 1 t) (iblk m c 2 t) (iblk m c 3 t) acc (ix2 k d)
      = acc (ix2 k d) + tileSumT m c (batchOf t) (tileOf t) k d := by
  have h := tileT_real (iblk m c 0 t) (iblk m c 1 t) (iblk m c 2 t) (iblk m c 3 t)
    (fun r d => by rw [rows_blk]; exact hX _) (fun k d => by rw [cw_blk]; exact hC _) (fun k => by rw [scales_blk]; exact hS _)
    (norms_blk m c t) acc k d
  rw [h, rows_blk, cw_blk, scales_blk]
  rfl

theorem stepU (t : Fin cfg0.N) (acc : Vec Ideal S1x128 .f32) (u : Fin 1) (k : Fin 128) :
    tileU (iblk m c 0 t) (iblk m c 1 t) (iblk m c 2 t) (iblk m c 3 t) acc (ix2 u k)
      = acc (ix2 u k) + tileSumU m c (batchOf t) (tileOf t) k := by
  have h := tileU_real (iblk m c 0 t) (iblk m c 1 t) (iblk m c 2 t) (iblk m c 3 t)
    (fun r d => by rw [rows_blk]; exact hX _) (fun k d => by rw [cw_blk]; exact hC _) (fun k => by rw [scales_blk]; exact hS _)
    (norms_blk m c t) acc u k
  rw [h, rows_blk, cw_blk, scales_blk]
  rfl

/-! ## The accumulators point by point -/

/-- The table and the row after point t. -/
def accT (t : Fin cfg0.N) : Vec Ideal S128x128 .f32 := (outsAt0 m c t.val t.isLt).2.1
def accU (t : Fin cfg0.N) : Vec Ideal S1x128 .f32 := (outsAt0 m c t.val t.isLt).2.2

/-- The point before. -/
def prev (t : Fin cfg0.N) : Fin cfg0.N := ⟨t.val - 1, Nat.lt_of_le_of_lt (Nat.sub_le _ _) t.isLt⟩

omit hX hC hS in
theorem prev_val (t : Fin cfg0.N) : (prev t).val = t.val - 1 := rfl

theorem accT_first (t : Fin cfg0.N) (h0 : t.val % 4 = 0) (k d : Fin 128) :
    accT m c t (ix2 k d) = 0 + tileSumT m c (batchOf t) (tileOf t) k d := by
  have h1 : ¬t.val % 4 = 3 := by omega
  unfold accT
  rw [outsAt0_A m c t h0 h1]
  dsimp only
  rw [sout_A_0, stepT m c hX hC hS, pay5_at]

theorem accU_first (t : Fin cfg0.N) (h0 : t.val % 4 = 0) (u : Fin 1) (k : Fin 128) :
    accU m c t (ix2 u k) = 0 + tileSumU m c (batchOf t) (tileOf t) k := by
  have h1 : ¬t.val % 4 = 3 := by omega
  unfold accU
  rw [outsAt0_A m c t h0 h1]
  dsimp only
  rw [sout_A_1, stepU m c hX hC hS, pay6_at]

theorem accT_next (t : Fin cfg0.N) (h0 : ¬t.val % 4 = 0) (k d : Fin 128) :
    accT m c t (ix2 k d) = accT m c (prev t) (ix2 k d) + tileSumT m c (batchOf t) (tileOf t) k d := by
  unfold accT
  by_cases h1 : t.val % 4 = 3
  · rw [outsAt0_C m c t h0 h1]
    dsimp only
    rw [sout_C_0, stepT m c hX hC hS]
    rfl
  · rw [outsAt0_B m c t h0 h1]
    dsimp only
    rw [sout_B_0, stepT m c hX hC hS]
    rfl

theorem accU_next (t : Fin cfg0.N) (h0 : ¬t.val % 4 = 0) (u : Fin 1) (k : Fin 128) :
    accU m c t (ix2 u k) = accU m c (prev t) (ix2 u k) + tileSumU m c (batchOf t) (tileOf t) k := by
  unfold accU
  by_cases h1 : t.val % 4 = 3
  · rw [outsAt0_C m c t h0 h1]
    dsimp only
    rw [sout_C_1, stepU m c hX hC hS]
    rfl
  · rw [outsAt0_B m c t h0 h1]
    dsimp only
    rw [sout_B_1, stepU m c hX hC hS]
    rfl

omit hX hC hS in
/-- A point's tile sums depend on its batch and tile only. -/
theorem tile_of (t : Fin cfg0.N) (b : Fin 8) (n : Fin 4) (hb : t.val / 4 = b.val) (hn : t.val % 4 = n.val) :
    batchOf t = b ∧ tileOf t = n := ⟨Fin.ext hb, Fin.ext hn⟩

/-- After a batch's last tile the table holds the sums over all 16384 rows of the batch. -/
theorem accT_last (t : Fin cfg0.N) (h3 : t.val % 4 = 3) (k d : Fin 128) :
    accT m c t (ix2 k d) = ∑ n : Fin 16384, weight (C m c) (S m c) (X m c (batchOf t) n) k * X m c (batchOf t) n d := by
  have hN := lt_of_lt_of_eq t.isLt (show cfg0.N = 32 from N_0)
  have p1 := prev_val t
  have p2 := prev_val (prev t)
  have p3 := prev_val (prev (prev t))
  obtain ⟨b0, n0⟩ := tile_of t (batchOf t) 3 rfl (by show t.val % 4 = 3; exact h3)
  obtain ⟨b1, n1⟩ := tile_of (prev t) (batchOf t) 2 (by show (prev t).val / 4 = t.val / 4; omega) (by show (prev t).val % 4 = 2; omega)
  obtain ⟨b2, n2⟩ := tile_of (prev (prev t)) (batchOf t) 1 (by show (prev (prev t)).val / 4 = t.val / 4; omega) (by show (prev (prev t)).val % 4 = 1; omega)
  obtain ⟨b3, n3⟩ := tile_of (prev (prev (prev t))) (batchOf t) 0 (by show (prev (prev (prev t))).val / 4 = t.val / 4; omega) (by show (prev (prev (prev t))).val % 4 = 0; omega)
  rw [accT_next m c hX hC hS t (by omega), accT_next m c hX hC hS (prev t) (by omega), accT_next m c hX hC hS (prev (prev t)) (by omega),
    accT_first m c hX hC hS (prev (prev (prev t))) (by omega), zero_add, n0, b1, n1, b2, n2, b3, n3]
  rw [sum_tiles, Fin.sum_univ_four]
  rfl

theorem accU_last (t : Fin cfg0.N) (h3 : t.val % 4 = 3) (u : Fin 1) (k : Fin 128) :
    accU m c t (ix2 u k) = ∑ n : Fin 16384, weight (C m c) (S m c) (X m c (batchOf t) n) k := by
  have hN := lt_of_lt_of_eq t.isLt (show cfg0.N = 32 from N_0)
  have p1 := prev_val t
  have p2 := prev_val (prev t)
  have p3 := prev_val (prev (prev t))
  obtain ⟨b0, n0⟩ := tile_of t (batchOf t) 3 rfl (by show t.val % 4 = 3; exact h3)
  obtain ⟨b1, n1⟩ := tile_of (prev t) (batchOf t) 2 (by show (prev t).val / 4 = t.val / 4; omega) (by show (prev t).val % 4 = 2; omega)
  obtain ⟨b2, n2⟩ := tile_of (prev (prev t)) (batchOf t) 1 (by show (prev (prev t)).val / 4 = t.val / 4; omega) (by show (prev (prev t)).val % 4 = 1; omega)
  obtain ⟨b3, n3⟩ := tile_of (prev (prev (prev t))) (batchOf t) 0 (by show (prev (prev (prev t))).val / 4 = t.val / 4; omega) (by show (prev (prev (prev t))).val % 4 = 0; omega)
  rw [accU_next m c hX hC hS t (by omega), accU_next m c hX hC hS (prev t) (by omega), accU_next m c hX hC hS (prev (prev t)) (by omega),
    accU_first m c hX hC hS (prev (prev (prev t))) (by omega), zero_add, n0, b1, n1, b2, n2, b3, n3]
  rw [sum_tiles, Fin.sum_univ_four]
  rfl

/-- What a batch's last tile stores: the encoding of the batch. -/
theorem out_last (t : Fin cfg0.N) (h3 : t.val % 4 = 3) (u : Fin 1) (k d : Fin 128) :
    (outsAt0 m c t.val t.isLt).1 (ix3 u k d) = encode (X m c) (C m c) (S m c) (batchOf t) k d := by
  have h0 : ¬t.val % 4 = 0 := by omega
  have eT := accT_last m c hX hC hS t h3 k d
  have eU := accU_last m c hX hC hS t h3 0 k
  unfold accT at eT
  unfold accU at eU
  rw [outsAt0_C m c t h0 h3] at eT eU ⊢
  dsimp only at eT eU ⊢
  rw [sout_C_0] at eT
  rw [sout_C_1] at eU
  rw [out_C_4, pay4_at, eT, eU, blk1]
  rfl

/-! ## From the blocks to the array -/

/-- The encoding of the three arguments on a core. -/
abbrev result : S8x128x128.Idx → EReal := encodeArr (m ((c : Thread nD τ).loc main_arg0)) (m ((c : Thread nD τ).loc main_arg1)) (m ((c : Thread nD τ).loc main_arg2))

/-- What a batch's last tile writes back is block b of the encoding. -/
theorem flushed_eq (t : Fin cfg0.N) (hf : (cfg0.win 4).flush t = true) :
    (dats m 0 c).flushed 4 t = ((cfg0.win 4).blk t).view.read (Elt Ideal) (result m c) := by
  have h3 : t.val % 4 = 3 := (flush0_4 t).mp hf
  rw [Cert.KernelIdeal.Value.flushed4]
  refine funext fun (j : S1x128x128.Idx) => ?_
  obtain ⟨u, k, d, rfl⟩ : ∃ (u : Fin 1) (k d : Fin 128), j = ix3 u k d := ⟨j 0, j 1, j 2, eq_ix3 j⟩
  have he : ((cfg0.win 4).blk t).view.emb (ix3 u k d) = ix3 (batchOf t) k d := by
    obtain ⟨-, -, -, -, -, -, -, -, -, e0, e1, e2⟩ := idx_facts t
    funext a
    apply Fin.ext
    have hu : u.val = 0 := by omega
    match a with
    | ⟨0, _⟩ => show win0_4.index t (0 : Fin 3) * 1 + 1 * u.val = t.val / 4; rw [e0]; omega
    | ⟨1, _⟩ => show win0_4.index t (1 : Fin 3) * 128 + 1 * k.val = k.val; rw [e1]; omega
    | ⟨2, _⟩ => show win0_4.index t (2 : Fin 3) * 128 + 1 * d.val = d.val; rw [e2]; omega
  show (outsAt0 m c t.val t.isLt).1 (ix3 u k d) = result m c (((cfg0.win 4).blk t).view.emb (ix3 u k d))
  rw [he]
  exact out_last m c hX hC hS t h3 u k d

omit hX hC hS in
/-- An index of the result array is in point t's block iff each coordinate is in the block's range on its axis. -/
theorem mem_blk (t : Fin cfg0.N) (i : S8x128x128.Idx) :
    i ∈ ((cfg0.win 4).blk t).view.set ↔ ∀ a : Fin 3, win0_4.index t a * S1x128x128.size a ≤ (i a).val ∧ (i a).val < win0_4.index t a * S1x128x128.size a + S1x128x128.size a := by
  show i ∈ ((View.whole main_v5).slice (win0_4.rect t)).set ↔ _
  rw [View.set_slice_whole, Rect.mem_set_unit]
  exact Iff.rfl

omit hX hC hS in
/-- Every index of the result array is in the block of its batch's last tile. -/
theorem cover (i : S8x128x128.Idx) : ∃ t : Fin cfg0.N, (cfg0.win 4).flush t = true ∧ i ∈ ((cfg0.win 4).blk t).view.set := by
  have hi0 : (i 0).val < 8 := (i 0).isLt
  have hi1 : (i 1).val < 128 := (i 1).isLt
  have hi2 : (i 2).val < 128 := (i 2).isLt
  have hN : cfg0.N = 32 := N_0
  have hlt : 4 * (i 0).val + 3 < cfg0.N := by omega
  refine ⟨⟨4 * (i 0).val + 3, hlt⟩, (flush0_4 _).mpr (by show (4 * (i 0).val + 3) % 4 = 3; omega), ?_⟩
  rw [mem_blk]
  obtain ⟨-, -, -, -, -, -, -, -, -, e0, e1, e2⟩ := idx_facts ⟨4 * (i 0).val + 3, hlt⟩
  have e0' : win0_4.index ⟨4 * (i 0).val + 3, hlt⟩ (0 : Fin 3) = (4 * (i 0).val + 3) / 4 := e0
  intro a
  match a with
  | ⟨0, _⟩ =>
    show win0_4.index ⟨4 * (i 0).val + 3, hlt⟩ (0 : Fin 3) * 1 ≤ (i 0).val ∧ (i 0).val < win0_4.index ⟨4 * (i 0).val + 3, hlt⟩ (0 : Fin 3) * 1 + 1
    rw [e0']; omega
  | ⟨1, _⟩ =>
    show win0_4.index ⟨4 * (i 0).val + 3, hlt⟩ (1 : Fin 3) * 128 ≤ (i 1).val ∧ (i 1).val < win0_4.index ⟨4 * (i 0).val + 3, hlt⟩ (1 : Fin 3) * 128 + 128
    rw [e1]; omega
  | ⟨2, _⟩ =>
    show win0_4.index ⟨4 * (i 0).val + 3, hlt⟩ (2 : Fin 3) * 128 ≤ (i 2).val ∧ (i 2).val < win0_4.index ⟨4 * (i 0).val + 3, hlt⟩ (2 : Fin 3) * 128 + 128
    rw [e2]; omega

/-- So the result array ends holding the encoding: batch b's block is written by point 4 b + 3. -/
theorem final : (dats m 0 c).arrAt 4 cfg0.N = result m c :=
  (dats m 0 c).arrAt_eq_of_cover 4 (result m c) (fun t hf => flushed_eq m c hX hC hS t hf) cover

end Real

/-- THE RUN: from a memory whose three arguments hold real numbers on every core, every weakly fair execution ends with the
    result array at the encoding of the arguments and the arguments unchanged. -/
theorem run (hX : ∀ c : Dev nD, ∀ i, IsReal ((m ((c : Thread nD τ).loc main_arg0)) i)) (hC : ∀ c : Dev nD, ∀ i, IsReal ((m ((c : Thread nD τ).loc main_arg1)) i)) (hS : ∀ c : Dev nD, ∀ i, IsReal ((m ((c : Thread nD τ).loc main_arg2)) i)) :
    θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hX c) (hC c) (hS c)), (h c).2⟩)
    (Cert.KernelIdeal.Value.run_blocks m ρ)

end Cert.KernelIdeal.Encoded

end
-- ==== Proof.lean ====
/-
  Soft vector-quantization encoding: the tiled kernel and the plain reference compute the same array on the extended reals.

  Both programs take features X [8, 16384, 128], codewords C [128, 128] and scales S [128], and produce
    E[b, k, d] = sum_n A[b, n, k] * X[b, n, d]  -  (sum_n A[b, n, k]) * C[k, d],
  where A[b, n, :] is the softmax over k of S_k * (|X[b,n]|^2 + |C_k|^2 - 2 <X[b,n], C_k>).
  The reference computes this in one piece. The kernel walks each batch in four tiles of 4096 rows, keeps the two sums in
  accumulators that it resets at a batch's first tile and reads out at its last, and takes both of its matrix products in
  three passes over a "high part" (the number itself, once a narrowing and widening of the float format is the identity) and a
  "low part" (the number minus its high part). A real number minus itself is zero, so on finite inputs the two extra passes
  add zeros: this is where the precondition is used, for the features, the codewords, and the softmax weights, which are real
  because they are quotients of exponentials of real numbers by a positive real sum. With that, the four tile sums of a batch
  add up to the sum over its 16384 rows, in any grouping.

  The frames of the two kernel programs are the generated ones; the reference's frame is its run with the result dropped.
  The kernel's idealization replaced four narrow-then-widen pairs by the identity: four instances of that rule's statement.
-/
import proofs.«105869_j67671504716293_2_alg».proof.Defs
import proofs.«105869_j67671504716293_2_alg».proof.Proof.Gen.Kernel
import proofs.«105869_j67671504716293_2_alg».proof.Proof.Gen.Kernel.Skeleton
import proofs.«105869_j67671504716293_2_alg».proof.Proof.Gen.Kernel.Launch
import proofs.«105869_j67671504716293_2_alg».proof.Proof.Gen.Kernel.Points
import proofs.«105869_j67671504716293_2_alg».proof.Proof.Gen.Kernel.Frame
import proofs.«105869_j67671504716293_2_alg».proof.Proof.Gen.KernelIdeal
import proofs.«105869_j67671504716293_2_alg».proof.Proof.Gen.KernelIdeal.Skeleton
import proofs.«105869_j67671504716293_2_alg».proof.Proof.Gen.KernelIdeal.Launch
import proofs.«105869_j67671504716293_2_alg».proof.Proof.Gen.KernelIdeal.Points
import proofs.«105869_j67671504716293_2_alg».proof.Proof.Gen.KernelIdeal.Frame
import proofs.«105869_j67671504716293_2_alg».proof.Proof.Gen.ReferenceIdeal
import proofs.«105869_j67671504716293_2_alg».proof.Proof.Gen.KernelIdeal.Value
import proofs.«105869_j67671504716293_2_alg».proof.Proof.Gen.ReferenceIdeal.Run
import proofs.«105869_j67671504716293_2_alg».proof.Proof.Gen.ReferenceIdeal.Read
import proofs.«105869_j67671504716293_2_alg».proof.Proof.Gen.Pre_finite_inputs
import proofs.«105869_j67671504716293_2_alg».proof.Proof.FiniteEntries
import proofs.«105869_j67671504716293_2_alg».proof.Proof.RefIsEncode
import proofs.«105869_j67671504716293_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Narrowing to the 16-bit format and widening back is the identity on the extended reals, at each of the four places. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- On finite inputs both programs end with the encoding of their (agreeing) arguments. -/
theorem algebraic : Cert.algebraic_KernelIdeal_ReferenceIdeal := by
  intro m ρ m' ρ' hpre hagree
  have hr := fun c => VqEncode.real_of_finite _ _ _ (hpre c)
  refine ⟨fun c => Cert.KernelIdeal.Encoded.result m c,
    Cert.KernelIdeal.Encoded.run m ρ (fun c => (hr c).1) (fun c => (hr c).2.1) (fun c => (hr c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, VqEncode.Ref.reference_is_encode, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
